-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S2x800000 : Shape := ⟨2, ![2, 800000]⟩
abbrev S50000x64 : Shape := ⟨2, ![50000, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128x64 .f32) (main_arg7 : FVec F S64 .f32) (main_arg8 : FVec F S128x64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg8
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  main_v33

def fn {F : FTy → Type} [FloatOps F] (main_arg0 : IVec S50000 32) (main_arg1 : IVec S2x800000 32) (main_arg2 : FVec F S50000x64 .f32) (main_arg3 : FVec F S64x128 .f32) (main_arg4 : FVec F S128 .f32) (main_arg5 : FVec F S64x128 .f32) (main_arg6 : FVec F S128x64 .f32) (main_arg7 : FVec F S64 .f32) (main_arg8 : FVec F S128x64 .f32) : IVec S_ 1 :=
  let main_v0 : FVec F S50000x64 .f32 := Host.absf main_arg2
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg5
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg6 main_arg7 main_arg8 main_v13 main_v16
-- ==== Kernel.lean ====
abbrev S50000 : Shape := ⟨1, ![50000]⟩
abbrev S2x800000 : Shape := ⟨2, ![2, 800000]⟩
abbrev S50000x64 : Shape := ⟨2, ![50000, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000x1 : Shape := ⟨2, ![50000, 1]⟩
abbrev S800000x1 : Shape := ⟨2, ![800000, 1]⟩
abbrev S800000x64 : Shape := ⟨2, ![800000, 64]⟩
abbrev S50000x128 : Shape := ⟨2, ![50000, 128]⟩
abbrev S2000x64 : Shape := ⟨2, ![2000, 64]⟩
abbrev S2000x128 : Shape := ⟨2, ![2000, 128]⟩
abbrev S1x128 : Shape := ⟨2, ![1, 128]⟩
abbrev S800000x128 : Shape := ⟨2, ![800000, 128]⟩
abbrev S1x64 : Shape := ⟨2, ![1, 64]⟩
abbrev S5000x64 : Shape := ⟨2, ![5000, 64]⟩
abbrev S5000x1 : Shape := ⟨2, ![5000, 1]⟩
abbrev S5000 : Shape := ⟨1, ![5000]⟩

abbrev nBuf : Space → Nat
  | .hbm => 87
  | .vmem => 24
  | .smem => 0
  | _ => 0

abbrev bufTy : (tb : Table) → Fin (tcTables nBuf tb) → BufTy
  | .hbm, ⟨0, _⟩ => ⟨S50000, .i32⟩
  | .hbm, ⟨1, _⟩ => ⟨S2x800000, .i32⟩
  | .hbm, ⟨2, _⟩ => ⟨S50000x64, .f32⟩
  | .hbm, ⟨3, _⟩ => ⟨S64x128, .f32⟩
  | .hbm, ⟨4, _⟩ => ⟨S128, .f32⟩
  | .hbm, ⟨5, _⟩ => ⟨S64x128, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S50000, .i32⟩
  | .hbm, ⟨15, _⟩ => ⟨S50000, .i1⟩
  | .hbm, ⟨16, _⟩ => ⟨S_, .i32⟩
  | .hbm, ⟨17, _⟩ => ⟨S50000, .i32⟩
  | .hbm, ⟨18, _⟩ => ⟨S50000, .i32⟩
  | .hbm, ⟨19, _⟩ => ⟨S50000, .i32⟩
  | .hbm, ⟨20, _⟩ => ⟨S50000x1, .i32⟩
  | .hbm, ⟨21, _⟩ => ⟨S50000x64, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x64, .f32⟩
  | .hbm, ⟨44, _⟩ => ⟨S_, .f32⟩
  | .hbm, ⟨45, _⟩ => ⟨S50000x64, .f32⟩
  | .hbm, ⟨46, _⟩ => ⟨S800000x1, .i32⟩
  | .hbm, ⟨47, _⟩ => ⟨S50000x64, .f32⟩
  | .hbm, ⟨48, _⟩ => ⟨S50000x64, .f32⟩
  | .hbm, ⟨49, _⟩ => ⟨S50000x64, .f32⟩
  | .hbm, ⟨50, _⟩ => ⟨S50000x128, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .f32⟩
  | .hbm, ⟨60, _⟩ => ⟨S_, .f32⟩
  | .hbm, ⟨61, _⟩ => ⟨S50000x128, .f32⟩
  | .hbm, ⟨62, _⟩ => ⟨S800000x1, .i32⟩
  | .hbm, ⟨63, _⟩ => ⟨S50000x128, .f32⟩
  | .hbm, ⟨64, _⟩ => ⟨S50000x128, .f32⟩
  | .hbm, ⟨65, _⟩ => ⟨S50000x128, .f32⟩
  | .hbm, ⟨66, _⟩ => ⟨S50000x64, .f32⟩
  | .hbm, ⟨67, _⟩ => ⟨S_, .i32⟩
  | .hbm, ⟨68, _⟩ => ⟨S800000, .i32⟩
  | .hbm, ⟨69, _⟩ => ⟨S800000, .i1⟩
  | .hbm, ⟨70, _⟩ => ⟨S_, .i32⟩
  | .hbm, ⟨71, _⟩ => ⟨S800000, .i32⟩
  | .hbm, ⟨72, _⟩ => ⟨S800000, .i32⟩
  | .hbm, ⟨73, _⟩ => ⟨S800000, .i32⟩
  | .hbm, ⟨74, _⟩ => ⟨S800000x1, .i32⟩
  | .hbm, ⟨75, _⟩ => ⟨S800000x64, .f32⟩
  | .hbm, ⟨76, _⟩ => ⟨S_, .i32⟩
  | .hbm, ⟨77, _⟩ => ⟨S800000, .i32⟩
  | .hbm, ⟨78, _⟩ => ⟨S800000, .i1⟩
  | .hbm, ⟨79, _⟩ => ⟨S_, .i32⟩
  | .hbm, ⟨80, _⟩ => ⟨S800000, .i32⟩
  | .hbm, ⟨81, _⟩ => ⟨S800000, .i32⟩
  | .hbm, ⟨82, _⟩ => ⟨S800000, .i32⟩
  | .hbm, ⟨83, _⟩ => ⟨S800000x1, .i32⟩
  | .hbm, ⟨84, _⟩ => ⟨S800000x64, .f32⟩
  | .hbm, ⟨85, _⟩ => ⟨S800000x1, .f32⟩
  | .hbm, ⟨86, _⟩ => ⟨S800000, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x128, .f32⟩
  | .local _ .vmem, ⟨5, _⟩ => ⟨S128, .f32⟩
  | .local _ .vmem, ⟨6, _⟩ => ⟨S64x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x64, .f32⟩
  | .local _ .vmem, ⟨14, _⟩ => ⟨S64, .f32⟩
  | .local _ .vmem, ⟨15, _⟩ => ⟨S128x64, .f32⟩
  | .local _ .vmem, ⟨16, _⟩ => ⟨S2000x64, .f32⟩
  | .local _ .vmem, ⟨17, _⟩ => ⟨S2000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x1, .f32⟩
  | .local _ .vmem, ⟨23, _⟩ => ⟨S5000x1, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_c_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_10 : Ref sig .tc := ⟨.hbm, 67, rfl⟩
abbrev main_v46 : Ref sig .tc := ⟨.hbm, 68, rfl⟩
abbrev main_v47 : Ref sig .tc := ⟨.hbm, 69, rfl⟩
abbrev main_c_11 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_12 : Ref sig .tc := ⟨.hbm, 76, rfl⟩
abbrev main_v53 : Ref sig .tc := ⟨.hbm, 77, rfl⟩
abbrev main_v54 : Ref sig .tc := ⟨.hbm, 78, rfl⟩
abbrev main_c_13 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![160], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S50000_S50000x1_0 : S50000.BroadcastsInDim S50000x1 (![0] : Fin 1 → Fin S50000x1.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S2000x128_S2000x128 : S2000x128.ShapeCasts S2000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  reduces_S5000x64_S5000 : S5000x64.Reduces [1] S5000
  shapeCasts_S5000_S5000x1 : S5000.ShapeCasts S5000x1
  inb_S5000x1_S5000x1_0_0 : ∀ a, (![0, 0] : Fin 2 → Nat) a + S5000x1.size a ≤ S5000x1.size a
  h_S5000x1 : 0 < S5000x1.numel
  shapeCasts_S800000x1_S800000 : S800000x1.ShapeCasts S800000
  gather_S50000x64_S50000x1_S50000x64_1_0_n_n_0_1_164_wf : GatherDims.WF S50000x64 S50000x1 S50000x64 [1] [0] [] [0] [] 1 ![1, 64]
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x128_S2000x128_1_0_0_1_n_n_wf : DotDims.WF S2000x64 S64x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S50000x64.size a
  hwx0_1 : ∀ i : grid0.Coords, EltTy.bits .f32 = 32 ∨ (Rect.block (s := S50000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S50000x64.size a
  hwx1_5 : ∀ i : grid1.Coords, EltTy.bits .f32 = 32 ∨ (Rect.block (s := S50000x64) S2000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S800000x64.size a
  hwx2_0 : ∀ i : grid2.Coords, EltTy.bits .f32 = 32 ∨ (Rect.block (s := S800000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S800000x64.size a
  hwx2_1 : ∀ i : grid2.Coords, EltTy.bits .f32 = 32 ∨ (Rect.block (s := S800000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S800000x1.size a
  hwx2_2 : ∀ i : grid2.Coords, EltTy.bits .f32 = 32 ∨ (Rect.block (s := S800000x1) S5000x1.size (cc2_transform_2 i) (hinb2_2 i)).WholeWords (EltTy.packing .f32)

variable [Facts₀]

def gather_S50000x64_S50000x1_S50000x64_1_0_n_n_0_1_164 : GatherDims S50000x64 S50000x1 S50000x64 where
  offsetDims := [1]
  collapsedSliceDims := [0]
  operandBatchingDims := []
  startIndicesBatchingDims := []
  startIndexMap := [0]
  indexVectorDim := 1
  sliceSizes := ![1, 64]
  wf := gather_S50000x64_S50000x1_S50000x64_1_0_n_n_0_1_164_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v31) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v44) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v52) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v60) S5000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000 : Shape := ⟨1, ![50000]⟩
abbrev S2x800000 : Shape := ⟨2, ![2, 800000]⟩
abbrev S50000x64 : Shape := ⟨2, ![50000, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩
abbrev S50000x1 : Shape := ⟨2, ![50000, 1]⟩
abbrev S1x800000 : Shape := ⟨2, ![1, 800000]⟩
abbrev S800000 : Shape := ⟨1, ![800000]⟩
abbrev S800000x1 : Shape := ⟨2, ![800000, 1]⟩
abbrev S800000x64 : Shape := ⟨2, ![800000, 64]⟩
abbrev S50000x128 : Shape := ⟨2, ![50000, 128]⟩
abbrev S1x128 : Shape := ⟨2, ![1, 128]⟩
abbrev S800000x128 : Shape := ⟨2, ![800000, 128]⟩
abbrev S1x64 : Shape := ⟨2, ![1, 64]⟩

abbrev nBuf : Space → Nat
  | .hbm => 99
  | .vmem => 0
  | .smem => 0
  | _ => 0

abbrev bufTy : (tb : Table) → Fin (tcTables nBuf tb) → BufTy
  | .hbm, ⟨0, _⟩ => ⟨S50000, .i32⟩
  | .hbm, ⟨1, _⟩ => ⟨S2x800000, .i32⟩
  | .hbm, ⟨2, _⟩ => ⟨S50000x64, .f32⟩
  | .hbm, ⟨3, _⟩ => ⟨S64x128, .f32⟩
  | .hbm, ⟨4, _⟩ => ⟨S128, .f32⟩
  | .hbm, ⟨5, _⟩ => ⟨S64x128, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S_, .i32⟩
  | .hbm, ⟨10, _⟩ => ⟨S50000, .i32⟩
  | .hbm, ⟨11, _⟩ => ⟨S50000, .i1⟩
  | .hbm, ⟨12, _⟩ => ⟨S_, .i32⟩
  | .hbm, ⟨13, _⟩ => ⟨S50000, .i32⟩
  | .hbm, ⟨14, _⟩ => ⟨S50000, .i32⟩
  | .hbm, ⟨15, _⟩ => ⟨S50000, .i32⟩
  | .hbm, ⟨16, _⟩ => ⟨S50000x1, .i32⟩
  | .hbm, ⟨17, _⟩ => ⟨S50000x64, .f32⟩
  | .hbm, ⟨18, _⟩ => ⟨S1x800000, .i32⟩
  | .hbm, ⟨19, _⟩ => ⟨S800000, .i32⟩
  | .hbm, ⟨20, _⟩ => ⟨S1x800000, .i32⟩
  | .hbm, ⟨21, _⟩ => ⟨S800000, .i32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x64, .f32⟩
  | .hbm, ⟨40, _⟩ => ⟨S_, .f32⟩
  | .hbm, ⟨41, _⟩ => ⟨S50000x64, .f32⟩
  | .hbm, ⟨42, _⟩ => ⟨S800000x1, .i32⟩
  | .hbm, ⟨43, _⟩ => ⟨S50000x64, .f32⟩
  | .hbm, ⟨44, _⟩ => ⟨S50000x1, .f32⟩
  | .hbm, ⟨45, _⟩ => ⟨S50000x64, .f32⟩
  | .hbm, ⟨46, _⟩ => ⟨S50000x64, .f32⟩
  | .hbm, ⟨47, _⟩ => ⟨S50000x128, .f32⟩
  | .hbm, ⟨48, _⟩ => ⟨S1x128, .f32⟩
  | .hbm, ⟨49, _⟩ => ⟨S50000x128, .f32⟩
  | .hbm, ⟨50, _⟩ => ⟨S50000x128, .f32⟩
  | .hbm, ⟨51, _⟩ => ⟨S50000x128, .f32⟩
  | .hbm, ⟨52, _⟩ => ⟨S50000x128, .f32⟩
  | .hbm, ⟨53, _⟩ => ⟨S_, .f32⟩
  | .hbm, ⟨54, _⟩ => ⟨S50000x128, .f32⟩
  | .hbm, ⟨55, _⟩ => ⟨S50000x128, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x128, .f32⟩
  | .hbm, ⟨65, _⟩ => ⟨S_, .f32⟩
  | .hbm, ⟨66, _⟩ => ⟨S50000x128, .f32⟩
  | .hbm, ⟨67, _⟩ => ⟨S800000x1, .i32⟩
  | .hbm, ⟨68, _⟩ => ⟨S50000x128, .f32⟩
  | .hbm, ⟨69, _⟩ => ⟨S50000x1, .f32⟩
  | .hbm, ⟨70, _⟩ => ⟨S50000x128, .f32⟩
  | .hbm, ⟨71, _⟩ => ⟨S50000x128, .f32⟩
  | .hbm, ⟨72, _⟩ => ⟨S50000x64, .f32⟩
  | .hbm, ⟨73, _⟩ => ⟨S1x64, .f32⟩
  | .hbm, ⟨74, _⟩ => ⟨S50000x64, .f32⟩
  | .hbm, ⟨75, _⟩ => ⟨S50000x64, .f32⟩
  | .hbm, ⟨76, _⟩ => ⟨S50000x64, .f32⟩
  | .hbm, ⟨77, _⟩ => ⟨S50000x64, .f32⟩
  | .hbm, ⟨78, _⟩ => ⟨S_, .i32⟩
  | .hbm, ⟨79, _⟩ => ⟨S800000, .i32⟩
  | .hbm, ⟨80, _⟩ => ⟨S800000, .i1⟩
  | .hbm, ⟨81, _⟩ => ⟨S_, .i32⟩
  | .hbm, ⟨82, _⟩ => ⟨S800000, .i32⟩
  | .hbm, ⟨83, _⟩ => ⟨S800000, .i32⟩
  | .hbm, ⟨84, _⟩ => ⟨S800000, .i32⟩
  | .hbm, ⟨85, _⟩ => ⟨S800000x1, .i32⟩
  | .hbm, ⟨86, _⟩ => ⟨S800000x64, .f32⟩
  | .hbm, ⟨87, _⟩ => ⟨S_, .i32⟩
  | .hbm, ⟨88, _⟩ => ⟨S800000, .i32⟩
  | .hbm, ⟨89, _⟩ => ⟨S800000, .i1⟩
  | .hbm, ⟨90, _⟩ => ⟨S_, .i32⟩
  | .hbm, ⟨91, _⟩ => ⟨S800000, .i32⟩
  | .hbm, ⟨92, _⟩ => ⟨S800000, .i32⟩
  | .hbm, ⟨93, _⟩ => ⟨S800000, .i32⟩
  | .hbm, ⟨94, _⟩ => ⟨S800000x1, .i32⟩
  | .hbm, ⟨95, _⟩ => ⟨S800000x64, .f32⟩
  | .hbm, ⟨96, _⟩ => ⟨S800000x64, .f32⟩
  | .hbm, ⟨97, _⟩ => ⟨S_, .f32⟩
  | .hbm, ⟨98, _⟩ => ⟨S800000, .f32⟩
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_call0_cst : Ref sig .tc := ⟨.hbm, 53, rfl⟩
abbrev main_call0_v0 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_c_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_9 : Ref sig .tc := ⟨.hbm, 78, rfl⟩
abbrev main_v56 : Ref sig .tc := ⟨.hbm, 79, rfl⟩
abbrev main_v57 : Ref sig .tc := ⟨.hbm, 80, rfl⟩
abbrev main_c_10 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_11 : Ref sig .tc := ⟨.hbm, 87, rfl⟩
abbrev main_v63 : Ref sig .tc := ⟨.hbm, 88, rfl⟩
abbrev main_v64 : Ref sig .tc := ⟨.hbm, 89, rfl⟩
abbrev main_c_12 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_13 : Ref sig .tc := ⟨.hbm, 97, rfl⟩
abbrev main_v71 : Ref sig .tc := ⟨.hbm, 98, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S800000x64_S800000_d1 : S800000x64.ReducesTo [1] S800000
  h_S_ : 0 < S_.numel
  gather_S50000x64_S50000x1_S50000x64_1_0_n_n_0_1_164_wf : GatherDims.WF S50000x64 S50000x1 S50000x64 [1] [0] [] [0] [] 1 ![1, 64]
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x128_S50000x128_1_0_0_1_n_n_wf : DotDims.WF S50000x64 S64x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []

variable [Facts₀]

def gather_S50000x64_S50000x1_S50000x64_1_0_n_n_0_1_164 : GatherDims S50000x64 S50000x1 S50000x64 where
  offsetDims := [1]
  collapsedSliceDims := [0]
  operandBatchingDims := []
  startIndicesBatchingDims := []
  startIndexMap := [0]
  indexVectorDim := 1
  sliceSizes := ![1, 64]
  wf := gather_S50000x64_S50000x1_S50000x64_1_0_n_n_0_1_164_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The kernel program's run, with its result named.

  @main of the kernel program is seven segments: four stretches of host operations around three pallas_calls. The
  generated frame module follows the TensorCore's buffer contents through them as a fold (`Gen.W0` … `Gen.W7`: a host
  stretch maps the contents by its operations; a region replaces its arrays by what its write-backs leave) and proves
  that every weakly fair execution terminates with every unscoped buffer at `Gen.W7`. Its frame theorem keeps only the
  argument arrays of that; here the same run is stated once more keeping the result buffer too: it ends at
  `Gen.W7 m ρ c` read at the result's reference. What that array is, index by index, is the business of the other modules.
-/
import proofs.«173329_j71270687310164_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at the end
    of the fold of buffer contents through @main's segments and the argument arrays as launched. -/
theorem run_result : θ_run defs (onTc (τ := τ) (main (F := F))) ⟨m, fun _ => 0, ρ⟩ (fun r => ∀ c : Dev nD,
      r.2.mem ((c.tc : Thread nD τ).loc main_v61) = W7 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v61 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c)⟩)

end Cert.KernelIdeal.RunValue

end
-- ==== Proof.LibAffine.lean ====
/-
  General lemmas: a dense layer over the extended reals, as one function of its operands read at an index.

  A dense layer takes a matrix `x` of shape [a, k], a weight `w` of shape [k, n] and a bias row `b` of shape [1, n],
  and returns the [a, n] matrix whose entry (p, j) is the sum over q of x (p, q) · w (q, j), plus b (0, j). The layer
  with a second product, on a second matrix `h` and weight `wr`, adds to that the sum over q of h (p, q) · wr (q, j).

  * `affine`, `affine2`: the two layers as functions of their operands, with `affineAt`, `affine2At` their entries;
  * `hostDot_ix2`: the host's plain product [a, k] × [k, n] at (p, j) is that sum of products;
  * `hostAffine_eq`, `hostAffine2_eq`: the host's product, plus the bias row laid along every row (a broadcast along
    both axes), plus for the second layer the second product, is the layer;
  * `coreAffine_eq`, `coreAffine2_eq`: a matrix-unit product into a zero accumulator, plus the bias row broadcast over
    the rows, plus for the second layer a second such product, is the layer;
  * `affineAt_congr`, `affine2At_congr`: the entry (p, j) only reads row p of the matrices, column j of the weights and
    entry j of the bias, so operands that agree there give the same entry (a block of rows of the layer is the layer
    of the block of rows).
  Nothing here mentions a program: the extents are variables and the dimension records are hypotheses.
-/
import Idealize.ShloMosaic.Lib.ValueLayout
import Idealize.ShloMosaic.Lib.ValueIdx
import Idealize.ShloMosaic.Lib.Pipeline.Value
import Idealize.ShloMosaic.PureOps.Ideal.Laws

noncomputable section

namespace Cert.LibAffine

open Idealize.ShloMosaic Idealize.ShloMosaic.ValueIdx

variable {a k n : ℕ}

/-- Entry (p, j) of `x · w + b`: the sum over q of x (p, q) · w (q, j), plus the bias row's entry j. -/
def affineAt (x : FVec Ideal ⟨2, ![a, k]⟩ .f32) (w : FVec Ideal ⟨2, ![k, n]⟩ .f32) (b : FVec Ideal ⟨2, ![1, n]⟩ .f32)
    (p : Fin a) (j : Fin n) : Ideal .f32 :=
  (∑ q : Fin k, x (ix2 p q) * w (ix2 q j)) + b (ix2 (0 : Fin 1) j)

/-- The dense layer `x · w + b` as an [a, n] array. -/
def affine (x : FVec Ideal ⟨2, ![a, k]⟩ .f32) (w : FVec Ideal ⟨2, ![k, n]⟩ .f32) (b : FVec Ideal ⟨2, ![1, n]⟩ .f32) :
    FVec Ideal ⟨2, ![a, n]⟩ .f32 :=
  fun i => affineAt x w b (i 0) (i 1)

theorem affine_ix2 (x : FVec Ideal ⟨2, ![a, k]⟩ .f32) (w : FVec Ideal ⟨2, ![k, n]⟩ .f32) (b : FVec Ideal ⟨2, ![1, n]⟩ .f32)
    (p : Fin a) (j : Fin n) : affine x w b (ix2 p j) = affineAt x w b p j := rfl

/-- Entry (p, j) of `s · wl + b + h · wr`. -/
def affine2At (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : Ideal .f32 :=
  (∑ q : Fin k, s (ix2 p q) * wl (ix2 q j)) + b (ix2 (0 : Fin 1) j) + ∑ q : Fin k, h (ix2 p q) * wr (ix2 q j)

/-- The two-product layer `s · wl + b + h · wr` as an [a, n] array. -/
def affine2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) : FVec Ideal ⟨2, ![a, n]⟩ .f32 :=
  fun i => affine2At s h wl b wr (i 0) (i 1)

theorem affine2_ix2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : affine2 s h wl b wr (ix2 p j) = affine2At s h wl b wr p j := rfl

/-- Entry (p, j) reads only row p of the matrix, column j of the weight and entry j of the bias. -/
theorem affineAt_congr {a' : ℕ} (X : FVec Ideal ⟨2, ![a, k]⟩ .f32) (W : FVec Ideal ⟨2, ![k, n]⟩ .f32) (B : FVec Ideal ⟨2, ![1, n]⟩ .f32)
    (x : FVec Ideal ⟨2, ![a', k]⟩ .f32) (w : FVec Ideal ⟨2, ![k, n]⟩ .f32) (b : FVec Ideal ⟨2, ![1, n]⟩ .f32)
    (p : Fin a') (p' : Fin a) (j : Fin n)
    (hx : ∀ q : Fin k, x (ix2 p q) = X (ix2 p' q)) (hw : ∀ q : Fin k, w (ix2 q j) = W (ix2 q j))
    (hb : b (ix2 (0 : Fin 1) j) = B (ix2 (0 : Fin 1) j)) :
    affineAt x w b p j = affineAt X W B p' j := by
  unfold affineAt
  rw [hb]
  exact congrArg (· + B (ix2 (0 : Fin 1) j)) (Finset.sum_congr rfl fun q _ => by rw [hx q, hw q])

/-- The same for the two-product layer. -/
theorem affine2At_congr {a' : ℕ} (S H : FVec Ideal ⟨2, ![a, k]⟩ .f32) (WL : FVec Ideal ⟨2, ![k, n]⟩ .f32) (B : FVec Ideal ⟨2, ![1, n]⟩ .f32)
    (WR : FVec Ideal ⟨2, ![k, n]⟩ .f32)
    (s h : FVec Ideal ⟨2, ![a', k]⟩ .f32) (wl : FVec Ideal ⟨2, ![k, n]⟩ .f32) (b : FVec Ideal ⟨2, ![1, n]⟩ .f32)
    (wr : FVec Ideal ⟨2, ![k, n]⟩ .f32) (p : Fin a') (p' : Fin a) (j : Fin n)
    (hs : ∀ q : Fin k, s (ix2 p q) = S (ix2 p' q)) (hh : ∀ q : Fin k, h (ix2 p q) = H (ix2 p' q))
    (hwl : ∀ q : Fin k, wl (ix2 q j) = WL (ix2 q j)) (hb : b (ix2 (0 : Fin 1) j) = B (ix2 (0 : Fin 1) j))
    (hwr : ∀ q : Fin k, wr (ix2 q j) = WR (ix2 q j)) :
    affine2At s h wl b wr p j = affine2At S H WL B WR p' j := by
  unfold affine2At
  rw [hb, Finset.sum_congr rfl fun q _ => (by rw [hs q, hwl q] : s (ix2 p q) * wl (ix2 q j) = S (ix2 p' q) * WL (ix2 q j)),
    Finset.sum_congr rfl fun q _ => (by rw [hh q, hwr q] : h (ix2 p q) * wr (ix2 q j) = H (ix2 p' q) * WR (ix2 q j))]

/-- The host's plain product of an [a, k] by a [k, n] array, whose dimension record contracts the left operand's
    columns against the right operand's rows (the four coordinate facts), is at (p, j) the sum over q of
    L (p, q) · R (q, j). -/
theorem hostDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    Host.dotGeneral D prec L R (ix2 p j) = ∑ q : Fin k, L (ix2 p q) * R (ix2 q j) := by
  show FloatOps.dotGeneral D prec .single L R (ix2 p j) = _
  rw [Ideal.dotGeneral_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A matrix-unit product of an [a, k] by a [k, n] array into the zero accumulator, under the same four coordinate
    facts, is at (p, j) the sum over q of L (p, q) · R (q, j). -/
theorem coreDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    FloatOps.matmul D prec L R (constant ⟨2, ![a, n]⟩ .f32 0x00000000#32) (ix2 p j) = ∑ q : Fin k, L (ix2 p q) * R (ix2 q j) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A row [1, n] laid along every row of an [a, n] array by a broadcast along both axes reads, at (p, j), the row's
    entry j. -/
theorem broadcastInDim_1n_an_apply {α : Type} (hd : (⟨2, ![1, n]⟩ : Shape).BroadcastsInDim ⟨2, ![a, n]⟩ ![0, 1])
    (v : (⟨2, ![1, n]⟩ : Shape).Idx → α) (p : Fin a) (j : Fin n) :
    broadcastInDim ⟨2, ![a, n]⟩ ![0, 1] hd v (ix2 p j) = v (ix2 (0 : Fin 1) j) := by
  refine broadcastInDim_apply ![0, 1] hd v (ix2 p j) (ix2 (0 : Fin 1) j) fun ax => ?_
  match ax with
  | ⟨0, _⟩ =>
    show (0 : ℕ) = if (1 : ℕ) = 1 then 0 else p.val
    rw [if_pos rfl]
  | ⟨1, _⟩ =>
    show j.val = if n = 1 then 0 else j.val
    split
    · have := j.isLt; omega
    · rfl

/-- The host's product plus the bias row laid along every row is the dense layer. -/
theorem hostAffine_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (x : FVec Ideal ⟨2, ![a, k]⟩ .f32) (w : FVec Ideal ⟨2, ![k, n]⟩ .f32) (b : FVec Ideal ⟨2, ![1, n]⟩ .f32) :
    addf (Host.dotGeneral D prec x w) (broadcastInDim ⟨2, ![a, n]⟩ ![0, 1] hd b) = affine x w b := by
  funext i
  obtain ⟨p, j, rfl⟩ : ∃ (p : Fin a) (j : Fin n), i = ix2 p j := ⟨i 0, i 1, eq_ix2 i⟩
  rw [addf_apply, hostDot_ix2 D hr hs hl0 hl1 hr0 hr1, broadcastInDim_1n_an_apply, affine_ix2]
  rfl

/-- The host's product plus the bias row plus a second product is the two-product layer. -/
theorem hostAffine2_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) :
    addf (addf (Host.dotGeneral D prec s wl) (broadcastInDim ⟨2, ![a, n]⟩ ![0, 1] hd b)) (Host.dotGeneral D prec h wr)
      = affine2 s h wl b wr := by
  funext i
  obtain ⟨p, j, rfl⟩ : ∃ (p : Fin a) (j : Fin n), i = ix2 p j := ⟨i 0, i 1, eq_ix2 i⟩
  rw [addf_apply, addf_apply, hostDot_ix2 D hr hs hl0 hl1 hr0 hr1, hostDot_ix2 D hr hs hl0 hl1 hr0 hr1,
    broadcastInDim_1n_an_apply, affine2_ix2]
  rfl

/-- A matrix-unit product into the zero accumulator plus the bias row broadcast over the rows is the dense layer. -/
theorem coreAffine_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (x : FVec Ideal ⟨2, ![a, k]⟩ φ) (w : FVec Ideal ⟨2, ![k, n]⟩ φ) (b : FVec Ideal ⟨2, ![1, n]⟩ .f32) :
    addf (FloatOps.matmul D prec x w (constant ⟨2, ![a, n]⟩ .f32 0x00000000#32)) (broadcastTo ⟨2, ![a, n]⟩ b hb)
      = affine (fun i => x i) (fun i => w i) b := by
  funext i
  obtain ⟨p, j, rfl⟩ : ∃ (p : Fin a) (j : Fin n), i = ix2 p j := ⟨i 0, i 1, eq_ix2 i⟩
  rw [addf_apply, coreDot_ix2 D hr hs hl0 hl1 hr0 hr1, broadcastTo_1b_ab_apply, affine_ix2]
  rfl

/-- Two matrix-unit products into zero accumulators, the bias row broadcast over the rows added to the first, is the
    two-product layer. -/
theorem coreAffine2_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (s h : FVec Ideal ⟨2, ![a, k]⟩ φ) (wl wr : FVec Ideal ⟨2, ![k, n]⟩ φ) (b : FVec Ideal ⟨2, ![1, n]⟩ .f32) :
    addf (addf (FloatOps.matmul D prec s wl (constant ⟨2, ![a, n]⟩ .f32 0x00000000#32)) (broadcastTo ⟨2, ![a, n]⟩ b hb))
        (FloatOps.matmul D prec h wr (constant ⟨2, ![a, n]⟩ .f32 0x00000000#32))
      = affine2 (fun i => s i) (fun i => h i) (fun i => wl i) b (fun i => wr i) := by
  funext i
  obtain ⟨p, j, rfl⟩ : ∃ (p : Fin a) (j : Fin n), i = ix2 p j := ⟨i 0, i 1, eq_ix2 i⟩
  rw [addf_apply, addf_apply, coreDot_ix2 D hr hs hl0 hl1 hr0 hr1, coreDot_ix2 D hr hs hl0 hl1 hr0 hr1,
    broadcastTo_1b_ab_apply, affine2_ix2]
  rfl

end Cert.LibAffine

end
-- ==== Proof.LibSageLayer.lean ====
/-
  General lemmas: the dense half of a mean-aggregation graph layer on a graph with several kinds of edges, over the
  extended reals, as one function of its operands read at an index.

  For one kind of edge the layer takes the aggregated neighbour features `s` of shape [a, k], the nodes' own features
  `h` of shape [a, k], two weights `wl`, `wr` of shape [k, n] and a bias row `b` of shape [1, n], and returns
  s · wl + b + h · wr (the two-product layer of LibAffine). A node kind that receives ONE kind of edge takes the
  positive part of that; a node kind that receives TWO kinds takes the positive part of half the sum of the two
  layers (the mean over the kinds), both layers reading the same `h`.

  * `soloAt`, `solo`: max (s · wl + b + h · wr) 0, entry by entry and as an [a, n] array;
  * `pairAt`, `pair`: max (1/2 · ((s₁ · wl₁ + b₁ + h · wr₁) + (s₂ · wl₂ + b₂ + h · wr₂))) 0;
  * `hostSolo_eq`, `hostPair_eq`: the host's chain of whole-array operations is the layer;
  * `coreSolo_eq`, `corePair_eq`: the chain a core runs on one block of rows — operands narrowed, products into zero
    accumulators, the bias row broadcast over the block's rows, 1/2 and 0 splat from scalars, the result narrowed — is
    the layer of the block;
  * `soloAt_congr`, `pairAt_congr`: entry (p, j) reads only row p of the matrices, column j of the weights and entry
    j of the bias rows, so a block of rows of the layer is the layer of the block of rows.
  Nothing here mentions a program: the extents are variables and the dimension records are hypotheses.
-/
import Idealize.ShloMosaic.Lib.ValueLayout
import Idealize.ShloMosaic.Lib.ValueIdx
import Idealize.ShloMosaic.Lib.Pipeline.Value
import Idealize.ShloMosaic.PureOps.Ideal.Laws
import proofs.«173329_j71270687310164_2_alg».proof.Proof.LibAffine

noncomputable section

namespace Cert.LibSageLayer

open Idealize.ShloMosaic Idealize.ShloMosaic.ValueIdx Cert.LibAffine

variable {a k n : ℕ}

/-- The positive part of one two-product layer at (p, j). -/
def soloAt (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : Ideal .f32 :=
  max (affine2At s h wl b wr p j) (Ideal.ofBits .f32 0x00000000#32)

/-- The one-kind layer as an [a, n] array. -/
def solo (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) : FVec Ideal ⟨2, ![a, n]⟩ .f32 :=
  fun i => soloAt s h wl b wr (i 0) (i 1)

theorem solo_ix2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : solo s h wl b wr (ix2 p j) = soloAt s h wl b wr p j := rfl

/-- The positive part of half the sum of two two-product layers on the same `h`, at (p, j). -/
def pairAt (s₁ s₂ h : FVec Ideal ⟨2, ![a, k]⟩ .f32) (wl₁ : FVec Ideal ⟨2, ![k, n]⟩ .f32) (b₁ : FVec Ideal ⟨2, ![1, n]⟩ .f32)
    (wr₁ wl₂ : FVec Ideal ⟨2, ![k, n]⟩ .f32) (b₂ : FVec Ideal ⟨2, ![1, n]⟩ .f32) (wr₂ : FVec Ideal ⟨2, ![k, n]⟩ .f32)
    (p : Fin a) (j : Fin n) : Ideal .f32 :=
  max (Ideal.ofBits .f32 0x3F000000#32 * (affine2At s₁ h wl₁ b₁ wr₁ p j + affine2At s₂ h wl₂ b₂ wr₂ p j))
    (Ideal.ofBits .f32 0x00000000#32)

/-- The two-kind layer as an [a, n] array. -/
def pair (s₁ s₂ h : FVec Ideal ⟨2, ![a, k]⟩ .f32) (wl₁ : FVec Ideal ⟨2, ![k, n]⟩ .f32) (b₁ : FVec Ideal ⟨2, ![1, n]⟩ .f32)
    (wr₁ wl₂ : FVec Ideal ⟨2, ![k, n]⟩ .f32) (b₂ : FVec Ideal ⟨2, ![1, n]⟩ .f32) (wr₂ : FVec Ideal ⟨2, ![k, n]⟩ .f32) :
    FVec Ideal ⟨2, ![a, n]⟩ .f32 :=
  fun i => pairAt s₁ s₂ h wl₁ b₁ wr₁ wl₂ b₂ wr₂ (i 0) (i 1)

theorem pair_ix2 (s₁ s₂ h : FVec Ideal ⟨2, ![a, k]⟩ .f32) (wl₁ : FVec Ideal ⟨2, ![k, n]⟩ .f32) (b₁ : FVec Ideal ⟨2, ![1, n]⟩ .f32)
    (wr₁ wl₂ : FVec Ideal ⟨2, ![k, n]⟩ .f32) (b₂ : FVec Ideal ⟨2, ![1, n]⟩ .f32) (wr₂ : FVec Ideal ⟨2, ![k, n]⟩ .f32)
    (p : Fin a) (j : Fin n) : pair s₁ s₂ h wl₁ b₁ wr₁ wl₂ b₂ wr₂ (ix2 p j) = pairAt s₁ s₂ h wl₁ b₁ wr₁ wl₂ b₂ wr₂ p j := rfl

/-- Entry (p, j) of the one-kind layer reads only row p of the matrices, column j of the weights, entry j of the bias. -/
theorem soloAt_congr {a' : ℕ} (S H : FVec Ideal ⟨2, ![a, k]⟩ .f32) (WL : FVec Ideal ⟨2, ![k, n]⟩ .f32) (B : FVec Ideal ⟨2, ![1, n]⟩ .f32)
    (WR : FVec Ideal ⟨2, ![k, n]⟩ .f32)
    (s h : FVec Ideal ⟨2, ![a', k]⟩ .f32) (wl : FVec Ideal ⟨2, ![k, n]⟩ .f32) (b : FVec Ideal ⟨2, ![1, n]⟩ .f32)
    (wr : FVec Ideal ⟨2, ![k, n]⟩ .f32) (p : Fin a') (p' : Fin a) (j : Fin n)
    (hs : ∀ q : Fin k, s (ix2 p q) = S (ix2 p' q)) (hh : ∀ q : Fin k, h (ix2 p q) = H (ix2 p' q))
    (hwl : ∀ q : Fin k, wl (ix2 q j) = WL (ix2 q j)) (hb : b (ix2 (0 : Fin 1) j) = B (ix2 (0 : Fin 1) j))
    (hwr : ∀ q : Fin k, wr (ix2 q j) = WR (ix2 q j)) :
    soloAt s h wl b wr p j = soloAt S H WL B WR p' j := by
  unfold soloAt
  rw [affine2At_congr S H WL B WR s h wl b wr p p' j hs hh hwl hb hwr]

/-- The same for the two-kind layer. -/
theorem pairAt_congr {a' : ℕ} (S₁ S₂ H : FVec Ideal ⟨2, ![a, k]⟩ .f32) (WL₁ : FVec Ideal ⟨2, ![k, n]⟩ .f32)
    (B₁ : FVec Ideal ⟨2, ![1, n]⟩ .f32) (WR₁ WL₂ : FVec Ideal ⟨2, ![k, n]⟩ .f32) (B₂ : FVec Ideal ⟨2, ![1, n]⟩ .f32)
    (WR₂ : FVec Ideal ⟨2, ![k, n]⟩ .f32)
    (s₁ s₂ h : FVec Ideal ⟨2, ![a', k]⟩ .f32) (wl₁ : FVec Ideal ⟨2, ![k, n]⟩ .f32) (b₁ : FVec Ideal ⟨2, ![1, n]⟩ .f32)
    (wr₁ wl₂ : FVec Ideal ⟨2, ![k, n]⟩ .f32) (b₂ : FVec Ideal ⟨2, ![1, n]⟩ .f32) (wr₂ : FVec Ideal ⟨2, ![k, n]⟩ .f32)
    (p : Fin a') (p' : Fin a) (j : Fin n)
    (hs₁ : ∀ q : Fin k, s₁ (ix2 p q) = S₁ (ix2 p' q)) (hs₂ : ∀ q : Fin k, s₂ (ix2 p q) = S₂ (ix2 p' q))
    (hh : ∀ q : Fin k, h (ix2 p q) = H (ix2 p' q))
    (hwl₁ : ∀ q : Fin k, wl₁ (ix2 q j) = WL₁ (ix2 q j)) (hb₁ : b₁ (ix2 (0 : Fin 1) j) = B₁ (ix2 (0 : Fin 1) j))
    (hwr₁ : ∀ q : Fin k, wr₁ (ix2 q j) = WR₁ (ix2 q j))
    (hwl₂ : ∀ q : Fin k, wl₂ (ix2 q j) = WL₂ (ix2 q j)) (hb₂ : b₂ (ix2 (0 : Fin 1) j) = B₂ (ix2 (0 : Fin 1) j))
    (hwr₂ : ∀ q : Fin k, wr₂ (ix2 q j) = WR₂ (ix2 q j)) :
    pairAt s₁ s₂ h wl₁ b₁ wr₁ wl₂ b₂ wr₂ p j = pairAt S₁ S₂ H WL₁ B₁ WR₁ WL₂ B₂ WR₂ p' j := by
  unfold pairAt
  rw [affine2At_congr S₁ H WL₁ B₁ WR₁ s₁ h wl₁ b₁ wr₁ p p' j hs₁ hh hwl₁ hb₁ hwr₁,
    affine2At_congr S₂ H WL₂ B₂ WR₂ s₂ h wl₂ b₂ wr₂ p p' j hs₂ hh hwl₂ hb₂ hwr₂]

/-- A scalar laid over a whole array reads, at every index, that scalar. -/
theorem broadcastInDim_scalar_apply {α : Type} {t : Shape} (hd : (⟨0, ![]⟩ : Shape).BroadcastsInDim t ![])
    (x : (⟨0, ![]⟩ : Shape).Idx → α) (i : t.Idx) : broadcastInDim t ![] hd x i = x ix0 :=
  broadcastInDim_apply ![] hd x i ix0 fun ax => ax.elim0

/-- The host's chain for a node kind with one kind of edge: product, bias row laid along every row, second product,
    positive part against a zero laid over the array. -/
theorem hostSolo_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1])
    (hz : (⟨0, ![]⟩ : Shape).BroadcastsInDim ⟨2, ![a, n]⟩ ![]) (prec : Option ContractPrecision)
    (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) :
    maximumf
        (addf (addf (Host.dotGeneral D prec s wl) (broadcastInDim ⟨2, ![a, n]⟩ ![0, 1] hd b)) (Host.dotGeneral D prec h wr))
        (broadcastInDim ⟨2, ![a, n]⟩ ![] hz (constant (F := Ideal) ⟨0, ![]⟩ .f32 0x00000000#32))
      = solo s h wl b wr := by
  rw [hostAffine2_eq D hr hs hl0 hl1 hr0 hr1 hd prec s h wl b wr]
  funext i
  obtain ⟨p, j, rfl⟩ : ∃ (p : Fin a) (j : Fin n), i = ix2 p j := ⟨i 0, i 1, eq_ix2 i⟩
  rw [maximumf_apply, broadcastInDim_scalar_apply, affine2_ix2, solo_ix2]
  rfl

/-- The host's chain for a node kind with two kinds of edges: the two layers added, multiplied by a 1/2 laid over the
    array, positive part against a zero laid over the array. -/
theorem hostPair_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1])
    (hz : (⟨0, ![]⟩ : Shape).BroadcastsInDim ⟨2, ![a, n]⟩ ![]) (prec : Option ContractPrecision)
    (s₁ s₂ h : FVec Ideal ⟨2, ![a, k]⟩ .f32) (wl₁ : FVec Ideal ⟨2, ![k, n]⟩ .f32) (b₁ : FVec Ideal ⟨2, ![1, n]⟩ .f32)
    (wr₁ wl₂ : FVec Ideal ⟨2, ![k, n]⟩ .f32) (b₂ : FVec Ideal ⟨2, ![1, n]⟩ .f32) (wr₂ : FVec Ideal ⟨2, ![k, n]⟩ .f32) :
    maximumf
        (mulf (broadcastInDim ⟨2, ![a, n]⟩ ![] hz (constant (F := Ideal) ⟨0, ![]⟩ .f32 0x3F000000#32))
          (addf
            (addf (addf (Host.dotGeneral D prec s₁ wl₁) (broadcastInDim ⟨2, ![a, n]⟩ ![0, 1] hd b₁)) (Host.dotGeneral D prec h wr₁))
            (addf (addf (Host.dotGeneral D prec s₂ wl₂) (broadcastInDim ⟨2, ![a, n]⟩ ![0, 1] hd b₂)) (Host.dotGeneral D prec h wr₂))))
        (broadcastInDim ⟨2, ![a, n]⟩ ![] hz (constant (F := Ideal) ⟨0, ![]⟩ .f32 0x00000000#32))
      = pair s₁ s₂ h wl₁ b₁ wr₁ wl₂ b₂ wr₂ := by
  rw [hostAffine2_eq D hr hs hl0 hl1 hr0 hr1 hd prec s₁ h wl₁ b₁ wr₁, hostAffine2_eq D hr hs hl0 hl1 hr0 hr1 hd prec s₂ h wl₂ b₂ wr₂]
  funext i
  obtain ⟨p, j, rfl⟩ : ∃ (p : Fin a) (j : Fin n), i = ix2 p j := ⟨i 0, i 1, eq_ix2 i⟩
  rw [maximumf_apply, mulf_apply, addf_apply, broadcastInDim_scalar_apply, broadcastInDim_scalar_apply, affine2_ix2, affine2_ix2,
    pair_ix2]
  rfl

/-- The chain a core runs on a block of rows for one kind of edge: the aggregated block narrowed, the two weights
    already narrowed and transposed by the caller, products into zero accumulators, the bias row broadcast over the
    block's rows, positive part against a splat zero, the result narrowed. -/
theorem coreSolo_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (s h : FVec Ideal ⟨2, ![a, k]⟩ φ) (wl wr : FVec Ideal ⟨2, ![k, n]⟩ φ) (b : FVec Ideal ⟨2, ![1, n]⟩ .f32) :
    maximumf
        (addf (addf (FloatOps.matmul D prec s wl (constant ⟨2, ![a, n]⟩ .f32 0x00000000#32)) (broadcastTo ⟨2, ![a, n]⟩ b hb))
          (FloatOps.matmul D prec h wr (constant ⟨2, ![a, n]⟩ .f32 0x00000000#32)))
        (broadcast ⟨2, ![a, n]⟩ (Scalar.ofBits (F := Ideal) .f32 0x00000000#32))
      = solo (fun i => s i) (fun i => h i) (fun i => wl i) b (fun i => wr i) := by
  rw [coreAffine2_eq D hr hs hl0 hl1 hr0 hr1 hb prec s h wl wr b]
  funext i
  obtain ⟨p, j, rfl⟩ : ∃ (p : Fin a) (j : Fin n), i = ix2 p j := ⟨i 0, i 1, eq_ix2 i⟩
  rw [maximumf_apply, broadcast_apply, affine2_ix2, solo_ix2]
  rfl

/-- The same for two kinds of edges: the two layers added, multiplied by a splat 1/2, positive part against a splat
    zero. -/
theorem corePair_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (s₁ s₂ h : FVec Ideal ⟨2, ![a, k]⟩ φ) (wl₁ wr₁ wl₂ wr₂ : FVec Ideal ⟨2, ![k, n]⟩ φ) (b₁ b₂ : FVec Ideal ⟨2, ![1, n]⟩ .f32) :
    maximumf
        (mulf (broadcast ⟨2, ![a, n]⟩ (Scalar.ofBits (F := Ideal) .f32 0x3F000000#32))
          (addf
            (addf (addf (FloatOps.matmul D prec s₁ wl₁ (constant ⟨2, ![a, n]⟩ .f32 0x00000000#32)) (broadcastTo ⟨2, ![a, n]⟩ b₁ hb))
              (FloatOps.matmul D prec h wr₁ (constant ⟨2, ![a, n]⟩ .f32 0x00000000#32)))
            (addf (addf (FloatOps.matmul D prec s₂ wl₂ (constant ⟨2, ![a, n]⟩ .f32 0x00000000#32)) (broadcastTo ⟨2, ![a, n]⟩ b₂ hb))
              (FloatOps.matmul D prec h wr₂ (constant ⟨2, ![a, n]⟩ .f32 0x00000000#32)))))
        (broadcast ⟨2, ![a, n]⟩ (Scalar.ofBits (F := Ideal) .f32 0x00000000#32))
      = pair (fun i => s₁ i) (fun i => s₂ i) (fun i => h i) (fun i => wl₁ i) b₁ (fun i => wr₁ i) (fun i => wl₂ i) b₂ (fun i => wr₂ i) := by
  rw [coreAffine2_eq D hr hs hl0 hl1 hr0 hr1 hb prec s₁ h wl₁ wr₁ b₁, coreAffine2_eq D hr hs hl0 hl1 hr0 hr1 hb prec s₂ h wl₂ wr₂ b₂]
  funext i
  obtain ⟨p, j, rfl⟩ : ∃ (p : Fin a) (j : Fin n), i = ix2 p j := ⟨i 0, i 1, eq_ix2 i⟩
  rw [maximumf_apply, mulf_apply, addf_apply, broadcast_apply, broadcast_apply, affine2_ix2, affine2_ix2, pair_ix2]
  rfl

end Cert.LibSageLayer

end
-- ==== Proof.LibPlainDot.lean ====
/-
  General lemmas: the dimension record of a plain matrix product.

  A product of an [a, k] array by a [k, n] array contracts the left operand's axis 1 against the right operand's
  axis 0; the result's axis 0 is the left operand's axis 0 and its axis 1 the right operand's axis 1; nothing is
  batched. For ANY dimension record with those six axis lists:

  * `contr_rank`, `contr_size`: the contraction has one axis, of extent k;
  * `lhs_row`, `lhs_col`: at result index i and contraction position q the left operand is read at
    (i 0, q 0);
  * `rhs_row`, `rhs_col`: the right operand is read at (q 0, i 1).

  These are the six facts under which a host product and a matrix-unit product into a zero accumulator are the sum
  over q of L (p, q) · R (q, j). Nothing here mentions a program: the extents are variables and the record is any
  record with the stated axis lists.
-/
import Idealize.ShloMosaic.Lib.ValueIdx

noncomputable section

namespace Cert.LibPlainDot

open Idealize.ShloMosaic Idealize.ShloMosaic.ValueIdx

variable {a k n : ℕ} (D : DotDims ⟨2, ![a, k]⟩ ⟨2, ![k, n]⟩ ⟨2, ![a, n]⟩)

/-- The contraction has one axis. -/
theorem contr_rank (hlc : D.lhsContracting = [1]) : D.contr.rank = 1 := by
  rw [D.rank_contr, hlc]; rfl

/-- Two coordinates of one index at equal positions are equal. -/
private theorem coord_congr {s : Shape} (i : s.Idx) (p q : ℕ) (hp : p < s.rank) (hq : q < s.rank) (h : p = q) :
    (i ⟨p, hp⟩).val = (i ⟨q, hq⟩).val := by subst h; rfl

/-- The contraction's one axis has the left operand's column extent. -/
theorem contr_size (hlc : D.lhsContracting = [1]) :
    D.contr.size ⟨0, by rw [contr_rank D hlc]; exact Nat.one_pos⟩ = k := by
  have h0 : 0 < D.lhsContracting.length := by rw [hlc]; exact Nat.one_pos
  have e := D.size_contr 0 h0
  have e1 : D.lhsContracting[0] = (1 : Fin 2) := by simp only [hlc, List.getElem_cons_zero]
  rw [e1] at e
  exact e

/-- The left operand's row is the result's row. -/
theorem lhs_row (hlb : D.lhsBatch = []) (hln : D.lhsNonContracting = [0]) (i : (⟨2, ![a, n]⟩ : Shape).Idx) (q : D.contr.Idx) :
    (D.lhsIdx i q 0).val = (i 0).val := by
  unfold DotDims.lhsIdx
  rw [dif_neg (by rw [hlb]; exact List.not_mem_nil), dif_pos (by rw [hln]; exact List.mem_singleton.mpr rfl)]
  simp only [Fin.val_cast]
  exact coord_congr i _ _ _ _ (by simp [hlb, hln])

/-- The left operand's column is the contraction position. -/
theorem lhs_col (hlc : D.lhsContracting = [1]) (i : (⟨2, ![a, n]⟩ : Shape).Idx) (q : D.contr.Idx) :
    (D.lhsIdx i q 1).val = (q ⟨0, by rw [contr_rank D hlc]; exact Nat.one_pos⟩).val :=
  D.lhsIdx_val_of_single hlc i q

/-- The right operand's row is the contraction position. -/
theorem rhs_row (hlc : D.lhsContracting = [1]) (hrc : D.rhsContracting = [0]) (i : (⟨2, ![a, n]⟩ : Shape).Idx) (q : D.contr.Idx) :
    (D.rhsIdx i q 0).val = (q ⟨0, by rw [contr_rank D hlc]; exact Nat.one_pos⟩).val :=
  D.rhsIdx_val_of_single hrc i q

/-- The right operand's column is the result's column. -/
theorem rhs_col (hlb : D.lhsBatch = []) (hln : D.lhsNonContracting = [0]) (hrb : D.rhsBatch = []) (hrn : D.rhsNonContracting = [1])
    (i : (⟨2, ![a, n]⟩ : Shape).Idx) (q : D.contr.Idx) :
    (D.rhsIdx i q 1).val = (i 1).val := by
  unfold DotDims.rhsIdx
  rw [dif_neg (by rw [hrb]; exact List.not_mem_nil), dif_pos (by rw [hrn]; exact List.mem_singleton.mpr rfl)]
  simp only [Fin.val_cast]
  exact coord_congr i _ _ _ _ (by simp [hlb, hln, hrn])

end Cert.LibPlainDot

end
-- ==== Proof.LibDenseOps.lean ====
/-
  General lemmas: the operations of a dense layer read at an index written with `ix1` / `ix2`, at the ideal values.

  * a vector `[a]` cast to a column `[a, 1]`, and a column `[a, 1]` broadcast over `b` columns (the two "keepdims"
    layout steps around a row reduction);
  * a plain matrix product `[a, k] × [k, b]` into a zero accumulator as the sum over `Fin k` of the products;
  * a lane sum and a lane maximum of an `[a, b]` array (the reduction over axis 1) as a sum and a fold over `Fin b`;
  * the host's maximum-reduce over axis 1 as the same fold.
  Nothing here mentions a program: the extents are variables and the dimension records are hypotheses.
-/
import Idealize.ShloMosaic.Lib.ValueLayout
import Idealize.ShloMosaic.Lib.ValueIdx
import Idealize.ShloMosaic.PureOps.Ideal.Laws

noncomputable section

namespace Cert.LibDenseOps

open Idealize.ShloMosaic Idealize.ShloMosaic.ValueIdx

variable {α : Type}

/-- An `[a]` array cast to a column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A matrix product of an `[a, k]` by a `[k, b]` array into the zero accumulator, whose dimension record contracts
    the left operand's columns against the right operand's rows (the four coordinate facts), is at `(p, j)` the sum over
    `q` of `L (p, q) · R (q, j)`. -/
theorem matmul_zero_ix2 {a k b : ℕ} {φ₁ φ₂ : FTy} (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, b]⟩ φ₂) (p : Fin a) (j : Fin b) :
    FloatOps.matmul D prec L R (constant ⟨2, ![a, b]⟩ .f32 0x00000000#32) (ix2 p j) = ∑ q : Fin k, L (ix2 p q) * R (ix2 q j) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- The reduced index `p` of an `[a, b]` array with lane `c` put back on axis 1 is `(p, c)`. -/
theorem lift_lane {a b : ℕ} (h : (⟨2, ![a, b]⟩ : Shape).Reduces [1] (⟨1, ![a]⟩ : Shape)) (p : Fin a)
    (c : Fin ((⟨2, ![a, b]⟩ : Shape).size 1)) : h.lift (ix1 p) c = ix2 p (⟨c.val, c.isLt⟩ : Fin b) := by
  funext ax; apply Fin.ext
  fin_cases ax <;> rfl

/-- A lane sum of an `[a, b]` array, read at row `p`: the sum over the row. -/
theorem laneSum_apply {a b : ℕ} (src : FVec Ideal ⟨2, ![a, b]⟩ .f32) (acc : BitVec 32)
    (h : (⟨2, ![a, b]⟩ : Shape).Reduces [1] (⟨1, ![a]⟩ : Shape)) (hφ : FKind.Formats .f32) (hacc : acc = FKind.add.neutral .f32 hφ) (p : Fin a) :
    multiReduction .add [1] ⟨1, ![a]⟩ src acc h hφ hacc (ix1 p) = ∑ c : Fin b, src (ix2 p c) := by
  refine (Ideal.multiReduction_add_single src acc h hφ hacc (ix1 p)).trans ?_
  exact Finset.sum_congr rfl fun c _ => congrArg src (lift_lane h p c)

/-- A lane maximum of an `[a, b]` array, read at row `p`: the fold of `max` over the row from the accumulator's value. -/
theorem laneMax_apply {a b : ℕ} (src : FVec Ideal ⟨2, ![a, b]⟩ .f32) (acc : BitVec 32)
    (h : (⟨2, ![a, b]⟩ : Shape).Reduces [1] (⟨1, ![a]⟩ : Shape)) (hφ : FKind.Formats .f32) (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun c => src (ix2 p c)) := by
  refine (Ideal.multiReduction_maximumf_single src acc h hφ hacc (ix1 p)).trans ?_
  have hf : (src ∘ h.lift (ix1 p)) = fun c : Fin b => src (ix2 p c) := funext fun c => congrArg src (lift_lane h p c)
  exact congrArg (fun f => Finset.fold max (Ideal.ofBits .f32 acc) f (Finset.univ : Finset (Fin b))) hf

/-- The host's reduce with a maximum body over axis 1 of an `[a, b]` array, read at row `p`: the same fold from the
    initial value. -/
theorem hostRowMax_apply {a b : ℕ} (x : FVec Ideal ⟨2, ![a, b]⟩ .f32) (init : (⟨0, ![]⟩ : Shape).Idx → Ideal .f32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (p : Fin a) :
    Host.reduce FloatOps.maximumf x init h' hu (ix1 p)
      = (Finset.univ : Finset (Fin b)).fold max (init (Shape.Idx.first hu)) (fun c => x (ix2 p c)) := by
  rw [Host.reduce_eq_fold_single FloatOps.maximumf x init h' h hu]
  have hf : (x ∘ h.lift (ix1 p)) = fun c : Fin b => x (ix2 p c) := funext fun c => congrArg x (lift_lane h p c)
  exact congrArg (fun f => Finset.fold max (init (Shape.Idx.first hu)) f (Finset.univ : Finset (Fin b))) hf

end Cert.LibDenseOps

end
-- ==== Proof.Blocks.lean ====
/-
  What each kernel body computes on one block, as a function of the blocks it loads.

  The two graph-layer bodies load a block of 2000 rows of the aggregated neighbour features `s` and of the nodes' own
  features `h`, the whole weights `wl`, `wr` and the whole bias vector `b`, narrow the four matrices (the identity on
  extended reals), and store `s · wl + b + h · wr` — the first body its positive part. The third body loads two blocks
  of 5000 rows of 64 features and stores, as a column, each row's sum of products.
-/
import proofs.«173329_j71270687310164_2_alg».proof.Proof.Gen.KernelIdeal.Skeleton
import proofs.«173329_j71270687310164_2_alg».proof.Proof.LibSageLayer
import proofs.«173329_j71270687310164_2_alg».proof.Proof.LibPlainDot
import proofs.«173329_j71270687310164_2_alg».proof.Proof.LibDenseOps

noncomputable section

namespace Cert.KernelIdeal.Blocks

open Cert.KernelIdeal Cert.KernelIdeal.Gen Idealize.ShloMosaic Idealize.ShloMosaic.ValueIdx
open Cert.LibAffine Cert.LibSageLayer Cert.LibPlainDot Cert.LibDenseOps

/-- The first layer's body stores max (s · wl + b + h · wr) 0 of its blocks, the bias vector read as a row. -/
theorem layer1_block (s h : Vec Ideal S2000x64 .f32) (wl wr : Vec Ideal S64x128 .f32) (b : Vec Ideal S128 .f32) :
    k0_pay1 (F := Ideal) s h wl wr b = solo s h wl (shapeCast S1x128 b shapeCasts_S128_S1x128) wr := by
  unfold k0_pay1
  simp only [shapeCast_self]
  exact coreSolo_eq (φ := .bf16) dot_S2000x64_S64x128_S2000x128_1_0_0_1_n_n
    (contr_rank _ rfl) (contr_size _ rfl) (lhs_row _ rfl rfl) (lhs_col _ rfl) (rhs_row _ rfl rfl) (rhs_col _ rfl rfl rfl rfl)
    broadcasts_S1x128_S2000x128 none _ _ _ _ _

/-- The second layer's body stores s · wl + b + h · wr of its blocks. -/
theorem layer2_block (s h : Vec Ideal S2000x128 .f32) (wl wr : Vec Ideal S128x64 .f32) (b : Vec Ideal S64 .f32) :
    k1_pay1 (F := Ideal) s h wl wr b = affine2 s h wl (shapeCast S1x64 b shapeCasts_S64_S1x64) wr := by
  unfold k1_pay1
  simp only [shapeCast_self]
  exact coreAffine2_eq (φ := .bf16) dot_S2000x128_S128x64_S2000x64_1_0_0_1_n_n
    (contr_rank _ rfl) (contr_size _ rfl) (lhs_row _ rfl rfl) (lhs_col _ rfl) (rhs_row _ rfl rfl) (rhs_col _ rfl rfl rfl rfl)
    broadcasts_S1x64_S2000x64 none _ _ _ _ _

/-- The third body stores, at row r of its one-column block, the sum over the 64 features of x (r, k) · y (r, k). -/
theorem dot_block (x y : Vec Ideal S5000x64 .f32) (r : Fin 5000) (u : Fin 1) :
    k2_pay1 (F := Ideal) x y (ix2 r u) = ∑ k : Fin 64, x (ix2 r k) * y (ix2 r k) := by
  unfold k2_pay1
  simp only [shapeCast_self]
  rw [shapeCast_a_a1_apply]
  exact laneSum_apply (mulf x y) _ reduces_S5000x64_S5000 _ _ r

end Cert.KernelIdeal.Blocks

end
-- ==== Proof.Region0.lean ====
/-
  The first graph layer's pallas_call leaves max (s · wl + b + h · wr) 0 of its operand arrays in its result array.

  The pallas_call's grid has 25 points; point t fetches rows 2000·t … 2000·t + 1999 of the two row-blocked operands and the
  whole of the weights and the bias, runs the body, and writes rows 2000·t … 2000·t + 1999 of the result back. Entry (p, j) of
  the layer reads only row p of the two matrices, column j of the weights and entry j of the bias, so what point t
  writes back is rows 2000·t … of the layer of the WHOLE arrays as the region finds them; the 25 blocks cover the result, which
  therefore ends as that layer. Stated at any entry contents `V`, so that the run's fold can instantiate it.
-/
import proofs.«173329_j71270687310164_2_alg».proof.Proof.Gen.KernelIdeal.Frame
import proofs.«173329_j71270687310164_2_alg».proof.Proof.Blocks
import Idealize.ShloMosaic.Lib.ValueLayout

set_option maxRecDepth 16384

noncomputable section

namespace Cert.KernelIdeal.Region0

open Cert.KernelIdeal Cert.KernelIdeal.Gen Cert.KernelIdeal.Blocks Idealize.ShloMosaic Idealize.ShloMosaic.TcCoe Idealize.ShloMosaic.ValueIdx
open Cert.LibAffine Cert.LibSageLayer
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The printed index maps, decided over the grid: the row-blocked windows are at block t, the others at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The layer of the whole arrays as the region finds them, the bias vector laid as a row. -/
def layer (c : Dev nD) (hb : S128.BroadcastsInDim S1x128 ![1]) : S50000x128.Idx → Ideal .f32 :=
  solo (V c main_v31 : S50000x64.Idx → Ideal .f32) (V c main_v10 : S50000x64.Idx → Ideal .f32) (V c main_arg3 : S64x128.Idx → Ideal .f32)
    (broadcastInDim S1x128 ![1] hb (V c main_arg4 : S128.Idx → Ideal .f32)) (V c main_arg5 : S64x128.Idx → Ideal .f32)

/-- WHAT POINT t WRITES BACK is block t of the layer of the whole arrays. -/
theorem flushed_eq (c : Dev nD) (hb : S128.BroadcastsInDim S1x128 ![1]) (t : Fin cfg0.N) :
    (dat0 V c).flushed 5 t = ((cfg0.win 5).blk t).view.read (Elt Ideal) (layer V c hb) := by
  show (cfg0.win 5).cut (grid0.coords t) ((dat0 V c).after 5 t) = _
  rw [after0_5]
  unfold out0_5
  rw [View.canon_unit_zero zero2]
  simp only [View.ld_unit_zero (S := S2000x64) zero2, View.ld_unit_zero (S := S64x128) zero2, View.ld_unit_zero (S := S128) zero1]
  rw [layer1_block]
  obtain ⟨e00, e01, e10, e11, e20, e21, e30, e40, e41, e50, e51⟩ := idx_facts t
  have hN : t.val < 25 := by have h := t.isLt; have e : cfg0.N = 25 := N_0; omega
  funext j
  obtain ⟨r, q, rfl⟩ : ∃ (r : Fin 2000) (q : Fin 128), j = ix2 r q := ⟨j 0, j 1, eq_ix2 j⟩
  have hr : t.val * 2000 + r.val < 50000 := by have := r.isLt; omega
  have hemb : ((cfg0.win 5).blk t).view.emb (ix2 r q) = ix2 (⟨t.val * 2000 + r.val, hr⟩ : Fin 50000) q := by
    funext a; apply Fin.ext
    match a with
    | ⟨0, _⟩ => show win0_5.index t (0 : Fin 2) * 2000 + 1 * r.val = t.val * 2000 + r.val; omega
    | ⟨1, _⟩ => show win0_5.index t (1 : Fin 2) * 128 + 1 * q.val = q.val; omega
  show solo (iblk0 V c 0 t) (iblk0 V c 1 t) (iblk0 V c 2 t) (shapeCast S1x128 (iblk0 V c 3 t) shapeCasts_S128_S1x128) (iblk0 V c 4 t) (ix2 r q)
    = layer V c hb (((cfg0.win 5).blk t).view.emb (ix2 r q))
  rw [hemb]
  refine soloAt_congr (V c main_v31 : S50000x64.Idx → Ideal .f32) (V c main_v10 : S50000x64.Idx → Ideal .f32) (V c main_arg3 : S64x128.Idx → Ideal .f32)
    (broadcastInDim S1x128 ![1] hb (V c main_arg4 : S128.Idx → Ideal .f32)) (V c main_arg5 : S64x128.Idx → Ideal .f32)
    (iblk0 V c 0 t) (iblk0 V c 1 t) (iblk0 V c 2 t) (shapeCast S1x128 (iblk0 V c 3 t) shapeCasts_S128_S1x128) (iblk0 V c 4 t)
    r (⟨t.val * 2000 + r.val, hr⟩ : Fin 50000) q (fun k => ?_) (fun k => ?_) (fun k => ?_) ?_ (fun k => ?_)
  · show V c main_v31 (((cfg0.win 0).blk t).view.emb (ix2 r k)) = V c main_v31 (ix2 (⟨t.val * 2000 + r.val, hr⟩ : Fin 50000) k)
    refine congrArg (V c main_v31) (funext fun a => Fin.ext ?_)
    match a with
    | ⟨0, _⟩ => show win0_0.index t (0 : Fin 2) * 2000 + 1 * r.val = t.val * 2000 + r.val; omega
    | ⟨1, _⟩ => show win0_0.index t (1 : Fin 2) * 64 + 1 * k.val = k.val; omega
  · show V c main_v10 (((cfg0.win 1).blk t).view.emb (ix2 r k)) = V c main_v10 (ix2 (⟨t.val * 2000 + r.val, hr⟩ : Fin 50000) k)
    refine congrArg (V c main_v10) (funext fun a => Fin.ext ?_)
    match a with
    | ⟨0, _⟩ => show win0_1.index t (0 : Fin 2) * 2000 + 1 * r.val = t.val * 2000 + r.val; omega
    | ⟨1, _⟩ => show win0_1.index t (1 : Fin 2) * 64 + 1 * k.val = k.val; omega
  · show V c main_arg3 (((cfg0.win 2).blk t).view.emb (ix2 k q)) = V c main_arg3 (ix2 k q)
    refine congrArg (V c main_arg3) (funext fun a => Fin.ext ?_)
    match a with
    | ⟨0, _⟩ => show win0_2.index t (0 : Fin 2) * 64 + 1 * k.val = k.val; omega
    | ⟨1, _⟩ => show win0_2.index t (1 : Fin 2) * 128 + 1 * q.val = q.val; omega
  · rw [shapeCast_a_1a_apply]
    have hbc : broadcastInDim S1x128 ![1] hb (V c main_arg4 : S128.Idx → Ideal .f32) (ix2 (0 : Fin 1) q) = V c main_arg4 (ix1 q) := by
      refine broadcastInDim_apply ![1] hb _ (ix2 (0 : Fin 1) q) (ix1 q) fun ax => ?_
      match ax with
      | ⟨0, _⟩ => rfl
    rw [hbc]
    show V c main_arg4 (((cfg0.win 3).blk t).view.emb (ix1 q)) = V c main_arg4 (ix1 q)
    refine congrArg (V c main_arg4) (funext fun a => Fin.ext ?_)
    match a with
    | ⟨0, _⟩ => show win0_3.index t (0 : Fin 1) * 128 + 1 * q.val = q.val; omega
  · show V c main_arg5 (((cfg0.win 4).blk t).view.emb (ix2 k q)) = V c main_arg5 (ix2 k q)
    refine congrArg (V c main_arg5) (funext fun a => Fin.ext ?_)
    match a with
    | ⟨0, _⟩ => show win0_4.index t (0 : Fin 2) * 64 + 1 * k.val = k.val; omega
    | ⟨1, _⟩ => show win0_4.index t (1 : Fin 2) * 128 + 1 * q.val = q.val; omega

/-- An index of the result is in point t's block iff each coordinate is in the block's range on its axis. -/
theorem mem_blk (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v32).slice (win0_5.rect t)).set ↔ _
  rw [View.set_slice_whole, Rect.mem_set_unit]
  exact Iff.rfl

/-- Every row lies in the block of the point numbered by its quotient by 2000. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  obtain ⟨e00, e01, e10, e11, e20, e21, e30, e40, e41, e50, e51⟩ := idx_facts t
  have ht : t.val = (i 0).val / 2000 := rfl
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- THE RESULT ARRAY after the region: the layer of the arrays as the region finds them. -/
theorem final (c : Dev nD) (hb : S128.BroadcastsInDim S1x128 ![1]) :
    (dat0 V c).arrAt 5 cfg0.N = layer V c hb :=
  (dat0 V c).arrAt_eq_of_cover 5 (layer V c hb) (fun t _ => flushed_eq V c hb t) (cover)

end Cert.KernelIdeal.Region0

end
-- ==== Proof.Region1.lean ====
/-
  The second graph layer's pallas_call leaves s · wl + b + h · wr of its operand arrays in its result array.

  The pallas_call's grid has 25 points; point t fetches rows 2000·t … 2000·t + 1999 of the two row-blocked operands and the
  whole of the weights and the bias, runs the body, and writes rows 2000·t … 2000·t + 1999 of the result back. Entry (p, j) of
  the layer reads only row p of the two matrices, column j of the weights and entry j of the bias, so what point t
  writes back is rows 2000·t … of the layer of the WHOLE arrays as the region finds them; the 25 blocks cover the result, which
  therefore ends as that layer. Stated at any entry contents `V`, so that the run's fold can instantiate it.
-/
import proofs.«173329_j71270687310164_2_alg».proof.Proof.Gen.KernelIdeal.Frame
import proofs.«173329_j71270687310164_2_alg».proof.Proof.Blocks
import Idealize.ShloMosaic.Lib.ValueLayout

set_option maxRecDepth 16384

noncomputable section

namespace Cert.KernelIdeal.Region1

open Cert.KernelIdeal Cert.KernelIdeal.Gen Cert.KernelIdeal.Blocks Idealize.ShloMosaic Idealize.ShloMosaic.TcCoe Idealize.ShloMosaic.ValueIdx
open Cert.LibAffine Cert.LibSageLayer
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The printed index maps, decided over the grid: the row-blocked windows are at block t, the others at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The layer of the whole arrays as the region finds them, the bias vector laid as a row. -/
def layer (c : Dev nD) (hb : S64.BroadcastsInDim S1x64 ![1]) : S50000x64.Idx → Ideal .f32 :=
  affine2 (V c main_v44 : S50000x128.Idx → Ideal .f32) (V c main_v32 : S50000x128.Idx → Ideal .f32) (V c main_arg6 : S128x64.Idx → Ideal .f32)
    (broadcastInDim S1x64 ![1] hb (V c main_arg7 : S64.Idx → Ideal .f32)) (V c main_arg8 : S128x64.Idx → Ideal .f32)

/-- WHAT POINT t WRITES BACK is block t of the layer of the whole arrays. -/
theorem flushed_eq (c : Dev nD) (hb : S64.BroadcastsInDim S1x64 ![1]) (t : Fin cfg1.N) :
    (dat1 V c).flushed 5 t = ((cfg1.win 5).blk t).view.read (Elt Ideal) (layer V c hb) := by
  show (cfg1.win 5).cut (grid1.coords t) ((dat1 V c).after 5 t) = _
  rw [after1_5]
  unfold out1_5
  rw [View.canon_unit_zero zero2]
  simp only [View.ld_unit_zero (S := S2000x128) zero2, View.ld_unit_zero (S := S128x64) zero2, View.ld_unit_zero (S := S64) zero1]
  rw [layer2_block]
  obtain ⟨e00, e01, e10, e11, e20, e21, e30, e40, e41, e50, e51⟩ := idx_facts t
  have hN : t.val < 25 := by have h := t.isLt; have e : cfg1.N = 25 := N_1; omega
  funext j
  obtain ⟨r, q, rfl⟩ : ∃ (r : Fin 2000) (q : Fin 64), j = ix2 r q := ⟨j 0, j 1, eq_ix2 j⟩
  have hr : t.val * 2000 + r.val < 50000 := by have := r.isLt; omega
  have hemb : ((cfg1.win 5).blk t).view.emb (ix2 r q) = ix2 (⟨t.val * 2000 + r.val, hr⟩ : Fin 50000) q := by
    funext a; apply Fin.ext
    match a with
    | ⟨0, _⟩ => show win1_5.index t (0 : Fin 2) * 2000 + 1 * r.val = t.val * 2000 + r.val; omega
    | ⟨1, _⟩ => show win1_5.index t (1 : Fin 2) * 64 + 1 * q.val = q.val; omega
  show affine2 (iblk1 V c 0 t) (iblk1 V c 1 t) (iblk1 V c 2 t) (shapeCast S1x64 (iblk1 V c 3 t) shapeCasts_S64_S1x64) (iblk1 V c 4 t) (ix2 r q)
    = layer V c hb (((cfg1.win 5).blk t).view.emb (ix2 r q))
  rw [hemb]
  refine affine2At_congr (V c main_v44 : S50000x128.Idx → Ideal .f32) (V c main_v32 : S50000x128.Idx → Ideal .f32) (V c main_arg6 : S128x64.Idx → Ideal .f32)
    (broadcastInDim S1x64 ![1] hb (V c main_arg7 : S64.Idx → Ideal .f32)) (V c main_arg8 : S128x64.Idx → Ideal .f32)
    (iblk1 V c 0 t) (iblk1 V c 1 t) (iblk1 V c 2 t) (shapeCast S1x64 (iblk1 V c 3 t) shapeCasts_S64_S1x64) (iblk1 V c 4 t)
    r (⟨t.val * 2000 + r.val, hr⟩ : Fin 50000) q (fun k => ?_) (fun k => ?_) (fun k => ?_) ?_ (fun k => ?_)
  · show V c main_v44 (((cfg1.win 0).blk t).view.emb (ix2 r k)) = V c main_v44 (ix2 (⟨t.val * 2000 + r.val, hr⟩ : Fin 50000) k)
    refine congrArg (V c main_v44) (funext fun a => Fin.ext ?_)
    match a with
    | ⟨0, _⟩ => show win1_0.index t (0 : Fin 2) * 2000 + 1 * r.val = t.val * 2000 + r.val; omega
    | ⟨1, _⟩ => show win1_0.index t (1 : Fin 2) * 128 + 1 * k.val = k.val; omega
  · show V c main_v32 (((cfg1.win 1).blk t).view.emb (ix2 r k)) = V c main_v32 (ix2 (⟨t.val * 2000 + r.val, hr⟩ : Fin 50000) k)
    refine congrArg (V c main_v32) (funext fun a => Fin.ext ?_)
    match a with
    | ⟨0, _⟩ => show win1_1.index t (0 : Fin 2) * 2000 + 1 * r.val = t.val * 2000 + r.val; omega
    | ⟨1, _⟩ => show win1_1.index t (1 : Fin 2) * 128 + 1 * k.val = k.val; omega
  · show V c main_arg6 (((cfg1.win 2).blk t).view.emb (ix2 k q)) = V c main_arg6 (ix2 k q)
    refine congrArg (V c main_arg6) (funext fun a => Fin.ext ?_)
    match a with
    | ⟨0, _⟩ => show win1_2.index t (0 : Fin 2) * 128 + 1 * k.val = k.val; omega
    | ⟨1, _⟩ => show win1_2.index t (1 : Fin 2) * 64 + 1 * q.val = q.val; omega
  · rw [shapeCast_a_1a_apply]
    have hbc : broadcastInDim S1x64 ![1] hb (V c main_arg7 : S64.Idx → Ideal .f32) (ix2 (0 : Fin 1) q) = V c main_arg7 (ix1 q) := by
      refine broadcastInDim_apply ![1] hb _ (ix2 (0 : Fin 1) q) (ix1 q) fun ax => ?_
      match ax with
      | ⟨0, _⟩ => rfl
    rw [hbc]
    show V c main_arg7 (((cfg1.win 3).blk t).view.emb (ix1 q)) = V c main_arg7 (ix1 q)
    refine congrArg (V c main_arg7) (funext fun a => Fin.ext ?_)
    match a with
    | ⟨0, _⟩ => show win1_3.index t (0 : Fin 1) * 64 + 1 * q.val = q.val; omega
  · show V c main_arg8 (((cfg1.win 4).blk t).view.emb (ix2 k q)) = V c main_arg8 (ix2 k q)
    refine congrArg (V c main_arg8) (funext fun a => Fin.ext ?_)
    match a with
    | ⟨0, _⟩ => show win1_4.index t (0 : Fin 2) * 128 + 1 * k.val = k.val; omega
    | ⟨1, _⟩ => show win1_4.index t (1 : Fin 2) * 64 + 1 * q.val = q.val; omega

/-- An index of the result is in point t's block iff each coordinate is in the block's range on its axis. -/
theorem mem_blk (t : Fin cfg1.N) (i : S50000x64.Idx) :
    i ∈ ((cfg1.win 5).blk t).view.set ↔ ∀ a : Fin 2, win1_5.index t a * S2000x64.size a ≤ (i a).val ∧ (i a).val < win1_5.index t a * S2000x64.size a + S2000x64.size a := by
  show i ∈ ((View.whole main_v45).slice (win1_5.rect t)).set ↔ _
  rw [View.set_slice_whole, Rect.mem_set_unit]
  exact Iff.rfl

/-- Every row lies in the block of the point numbered by its quotient by 2000. -/
theorem cover (i : S50000x64.Idx) : ∃ t : Fin cfg1.N, (cfg1.win 5).flush t = true ∧ i ∈ ((cfg1.win 5).blk t).view.set := by
  have hi0 : (i 0).val < 50000 := (i 0).isLt
  have hi1 : (i 1).val < 64 := (i 1).isLt
  have hN : cfg1.N = 25 := N_1
  let t : Fin cfg1.N := ⟨(i 0).val / 2000, by rw [hN]; omega⟩
  obtain ⟨e00, e01, e10, e11, e20, e21, e30, e40, e41, e50, e51⟩ := idx_facts t
  have ht : t.val = (i 0).val / 2000 := rfl
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 64 ≤ (i 1).val ∧ (i 1).val < win1_5.index t (1 : Fin 2) * 64 + 64; omega

/-- THE RESULT ARRAY after the region: the layer of the arrays as the region finds them. -/
theorem final (c : Dev nD) (hb : S64.BroadcastsInDim S1x64 ![1]) :
    (dat1 V c).arrAt 5 cfg1.N = layer V c hb :=
  (dat1 V c).arrAt_eq_of_cover 5 (layer V c hb) (fun t _ => flushed_eq V c hb t) (cover)

end Cert.KernelIdeal.Region1

end
-- ==== Proof.Region2.lean ====
/-
  The edge classifier's pallas_call leaves, in its one-column result array, each edge's sum of products.

  The grid has 160 points; point t fetches rows 5000·t … 5000·t + 4999 of the two [800000, 64] operands, and writes back
  rows 5000·t … of the [800000, 1] result: at row e the sum over the 64 features of x (e, k) · y (e, k). Row e of the result
  reads only row e of the operands, so what point t writes back is its block of that function of the WHOLE arrays, and
  the 160 blocks cover the result. Stated at any entry contents `V`.
-/
import proofs.«173329_j71270687310164_2_alg».proof.Proof.Gen.KernelIdeal.Frame
import proofs.«173329_j71270687310164_2_alg».proof.Proof.Blocks

set_option maxRecDepth 16384

noncomputable section

namespace Cert.KernelIdeal.Region2

open Cert.KernelIdeal Cert.KernelIdeal.Gen Cert.KernelIdeal.Blocks Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl

/-- The printed index maps, decided over the grid: all three windows are at block t of their rows. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- Each row's sum of products of two [800000, 64] arrays, as a one-column array. -/
def rowDots (x y : S800000x64.Idx → Ideal .f32) : S800000x1.Idx → Ideal .f32 := fun i =>
  ∑ k : Fin 64, x (ix2 (i 0) k) * y (ix2 (i 0) k)

/-- Row p of the sums of products reads only row p of the two arrays: a block's row r, holding row p of each, gives
    the same sum. -/
theorem rowDots_congr (x y : S5000x64.Idx → Ideal .f32) (X Y : S800000x64.Idx → Ideal .f32) (r : Fin 5000) (p : Fin 800000) (u : Fin 1)
    (hx : ∀ k : Fin 64, x (ix2 r k) = X (ix2 p k)) (hy : ∀ k : Fin 64, y (ix2 r k) = Y (ix2 p k)) :
    ∑ k : Fin 64, x (ix2 r k) * y (ix2 r k) = rowDots X Y (ix2 p u) := by
  show _ = ∑ k : Fin 64, X (ix2 p k) * Y (ix2 p k)
  exact Finset.sum_congr rfl fun k _ => congrArg₂ (· * ·) (hx k) (hy k)

/-- Each edge's sum of products of the two whole arrays as the region finds them. -/
def dots (c : Dev nD) : S800000x1.Idx → Ideal .f32 := rowDots (V c main_v52) (V c main_v59)

/-- WHAT POINT t WRITES BACK is block t of the edges' sums of products. -/
theorem flushed_eq (c : Dev nD) (t : Fin cfg2.N) :
    (dat2 V c).flushed 2 t = ((cfg2.win 2).blk t).view.read (Elt Ideal) (dots V c) := by
  show (cfg2.win 2).cut (grid2.coords t) ((dat2 V c).after 2 t) = _
  rw [after2_2]
  unfold out2_2
  rw [View.canon_unit_zero zero2]
  simp only [View.ld_unit_zero (S := S5000x64) zero2]
  obtain ⟨e00, e01, e10, e11, e20, e21⟩ := idx_facts t
  have hN : t.val < 160 := by have h := t.isLt; have e : cfg2.N = 160 := N_2; omega
  funext j
  obtain ⟨r, u, rfl⟩ : ∃ (r : Fin 5000) (u : Fin 1), j = ix2 r u := ⟨j 0, j 1, eq_ix2 j⟩
  have hr : t.val * 5000 + r.val < 800000 := by have := r.isLt; omega
  have hemb : ((cfg2.win 2).blk t).view.emb (ix2 r u) = ix2 (⟨t.val * 5000 + r.val, hr⟩ : Fin 800000) u := by
    funext a; apply Fin.ext
    match a with
    | ⟨0, _⟩ => show win2_2.index t (0 : Fin 2) * 5000 + 1 * r.val = t.val * 5000 + r.val; omega
    | ⟨1, _⟩ => show win2_2.index t (1 : Fin 2) * 1 + 1 * u.val = u.val; omega
  show k2_pay1 (iblk2 V c 0 t) (iblk2 V c 1 t) (ix2 r u) = dots V c (((cfg2.win 2).blk t).view.emb (ix2 r u))
  rw [hemb, dot_block]
  refine rowDots_congr (iblk2 V c 0 t) (iblk2 V c 1 t) (V c main_v52) (V c main_v59) r (⟨t.val * 5000 + r.val, hr⟩ : Fin 800000) u (fun k => ?_) (fun k => ?_)
  · show V c main_v52 (((cfg2.win 0).blk t).view.emb (ix2 r k)) = _
    refine congrArg (V c main_v52) (funext fun a => Fin.ext ?_)
    match a with
    | ⟨0, _⟩ => show win2_0.index t (0 : Fin 2) * 5000 + 1 * r.val = t.val * 5000 + r.val; omega
    | ⟨1, _⟩ => show win2_0.index t (1 : Fin 2) * 64 + 1 * k.val = k.val; omega
  · show V c main_v59 (((cfg2.win 1).blk t).view.emb (ix2 r k)) = _
    refine congrArg (V c main_v59) (funext fun a => Fin.ext ?_)
    match a with
    | ⟨0, _⟩ => show win2_1.index t (0 : Fin 2) * 5000 + 1 * r.val = t.val * 5000 + r.val; omega
    | ⟨1, _⟩ => show win2_1.index t (1 : Fin 2) * 64 + 1 * k.val = k.val; omega

/-- An index of the result is in point t's block iff each coordinate is in the block's range on its axis. -/
theorem mem_blk (t : Fin cfg2.N) (i : S800000x1.Idx) :
    i ∈ ((cfg2.win 2).blk t).view.set ↔ ∀ a : Fin 2, win2_2.index t a * S5000x1.size a ≤ (i a).val ∧ (i a).val < win2_2.index t a * S5000x1.size a + S5000x1.size a := by
  show i ∈ ((View.whole main_v60).slice (win2_2.rect t)).set ↔ _
  rw [View.set_slice_whole, Rect.mem_set_unit]
  exact Iff.rfl

/-- Every edge lies in the block of the point numbered by its quotient by 5000. -/
theorem cover (i : S800000x1.Idx) : ∃ t : Fin cfg2.N, (cfg2.win 2).flush t = true ∧ i ∈ ((cfg2.win 2).blk t).view.set := by
  have hi0 : (i 0).val < 800000 := (i 0).isLt
  have hi1 : (i 1).val < 1 := (i 1).isLt
  have hN : cfg2.N = 160 := N_2
  let t : Fin cfg2.N := ⟨(i 0).val / 5000, by rw [hN]; omega⟩
  obtain ⟨e00, e01, e10, e11, e20, e21⟩ := idx_facts t
  have ht : t.val = (i 0).val / 5000 := rfl
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 1 ≤ (i 1).val ∧ (i 1).val < win2_2.index t (1 : Fin 2) * 1 + 1; omega

/-- THE RESULT ARRAY after the region: each edge's sum of products of the arrays as the region finds them. -/
theorem final (c : Dev nD) : (dat2 V c).arrAt 2 cfg2.N = dots V c :=
  (dat2 V c).arrAt_eq_of_cover 2 (dots V c) (fun t _ => flushed_eq V c t) (cover)

end Cert.KernelIdeal.Region2

end
-- ==== Proof.LibMeanScale.lean ====
/-
  General lemmas: the mean over incoming edges, scaled two ways.

  A mean-aggregation graph layer divides each node's summed messages `S (p, j)` by the node's clamped in-degree
  `d p = max (z p) 1`. One arrangement forms the reciprocal column `1 / d` first, lays it along the columns and
  MULTIPLIES; the other lays `d` itself along the columns and DIVIDES. On the extended reals the two agree for every
  `S` and every `z` whatever: `max (z p) 1 ≥ 1` is never zero, and off zero the ideal quotient `x / y` is `x · y⁻¹`,
  so `S · (1 / d) = S · (1 · d⁻¹) = S · d⁻¹ = S / d`, at the infinities too.

  * `max_one_ne_zero`: `max z 1 ≠ 0`;
  * `column_spread_apply`: an [a] array laid along axis 0 of [a, 1] and then along the rows of [a, n] reads, at
    (p, j), its entry p;
  * `scale_by_reciprocal_eq`: the host's whole-array chains of the two arrangements are one array.
  Nothing here mentions a program: the extents are variables.
-/
import Idealize.ShloMosaic.Lib.IdealHost
import Idealize.ShloMosaic.Lib.Pipeline.Value
import Idealize.ShloMosaic.Lib.ValueIdx

noncomputable section

namespace Cert.LibMeanScale

open Idealize.ShloMosaic Idealize.ShloMosaic.ValueIdx

/-- A clamped count is at least one, so it is not zero. -/
theorem max_one_ne_zero (z : EReal) : max z 1 ≠ 0 := by
  intro h0
  have h : (1 : EReal) ≤ max z 1 := le_max_right _ _
  rw [h0] at h
  exact absurd h (not_le.mpr zero_lt_one)

variable {a n : ℕ}

/-- An [a] array laid along axis 0 of an [a, 1] column and then along the rows of [a, n] reads, at (p, j), its entry p. -/
theorem column_spread_apply {α : Type} (h1 : (⟨1, ![a]⟩ : Shape).BroadcastsInDim ⟨2, ![a, 1]⟩ ![0])
    (h2 : (⟨2, ![a, 1]⟩ : Shape).BroadcastsInDim ⟨2, ![a, n]⟩ ![0, 1]) (v : (⟨1, ![a]⟩ : Shape).Idx → α) (p : Fin a) (j : Fin n) :
    broadcastInDim ⟨2, ![a, n]⟩ ![0, 1] h2 (broadcastInDim ⟨2, ![a, 1]⟩ ![0] h1 v) (ix2 p j) = v (ix1 p) := by
  have e2 : broadcastInDim ⟨2, ![a, n]⟩ ![0, 1] h2 (broadcastInDim ⟨2, ![a, 1]⟩ ![0] h1 v) (ix2 p j)
      = broadcastInDim ⟨2, ![a, 1]⟩ ![0] h1 v (ix2 p (0 : Fin 1)) := by
    refine broadcastInDim_apply ![0, 1] h2 _ (ix2 p j) (ix2 p (0 : Fin 1)) fun ax => ?_
    match ax with
    | ⟨0, _⟩ =>
      show p.val = if a = 1 then 0 else p.val
      split
      · have := p.isLt; omega
      · rfl
    | ⟨1, _⟩ =>
      show (0 : ℕ) = if (1 : ℕ) = 1 then 0 else j.val
      rw [if_pos rfl]
  rw [e2]
  refine broadcastInDim_apply ![0] h1 v (ix2 p (0 : Fin 1)) (ix1 p) fun ax => ?_
  match ax with
  | ⟨0, _⟩ =>
    show p.val = if a = 1 then 0 else p.val
    split
    · have := p.isLt; omega
    · rfl

/-- Summed messages times the reciprocal of the clamped count, laid along the columns, are the summed messages
    divided by the clamped count laid along the columns: `S · (1 / max z 1) = S / max z 1` entry by entry, for every
    extended real. -/
theorem scale_by_reciprocal_eq (h0 : (⟨0, ![]⟩ : Shape).BroadcastsInDim ⟨1, ![a]⟩ ![])
    (h1 : (⟨1, ![a]⟩ : Shape).BroadcastsInDim ⟨2, ![a, 1]⟩ ![0])
    (h2 : (⟨2, ![a, 1]⟩ : Shape).BroadcastsInDim ⟨2, ![a, n]⟩ ![0, 1])
    (S : FVec Ideal ⟨2, ![a, n]⟩ .f32) (z : FVec Ideal ⟨1, ![a]⟩ .f32) :
    mulf S (broadcastInDim ⟨2, ![a, n]⟩ ![0, 1] h2 (broadcastInDim ⟨2, ![a, 1]⟩ ![0] h1
        (Host.divf (broadcastInDim ⟨1, ![a]⟩ ![] h0 (constant (F := Ideal) ⟨0, ![]⟩ .f32 0x3F800000#32))
          (maximumf z (broadcastInDim ⟨1, ![a]⟩ ![] h0 (constant (F := Ideal) ⟨0, ![]⟩ .f32 0x3F800000#32))))))
      = Host.divf S (broadcastInDim ⟨2, ![a, n]⟩ ![0, 1] h2 (broadcastInDim ⟨2, ![a, 1]⟩ ![0] h1
          (maximumf z (broadcastInDim ⟨1, ![a]⟩ ![] h0 (constant (F := Ideal) ⟨0, ![]⟩ .f32 0x3F800000#32))))) := by
  funext i
  obtain ⟨p, j, rfl⟩ : ∃ (p : Fin a) (j : Fin n), i = ix2 p j := ⟨i 0, i 1, eq_ix2 i⟩
  rw [mulf_apply, hostDivf_apply, column_spread_apply, column_spread_apply, hostDivf_apply, maximumf_apply,
    broadcastInDim_scalar_apply, constant_apply, Ideal.ofBits_one_f32]
  exact Ideal.mul_one_div (max_one_ne_zero _)

end Cert.LibMeanScale

end
-- ==== Proof.HostFold.lean ====
/-
  The kernel program's buffer contents, followed through @main's seven segments, are the reference's stages.

  Both programs begin with the same host operations on the same arguments (wrapping of negative node numbers, the
  embedding lookup, the in-degree count clamped at one, a row gather at the sources and a row scatter-add at the
  targets), so those arrays are the SAME terms and are never opened here. They part in three places:
  * the mean over incoming edges: the kernel multiplies the summed messages by the reciprocal of the clamped count,
    the reference divides by the clamped count — one array, for every extended real, because the clamped count is
    at least one and so never zero (the general lemma of the scaling module);
  * the two dense layers: the kernel's pallas_calls leave the layer of their operand arrays (the region modules),
    the reference's host chain of products and broadcasts is that layer (the general lemmas on dense layers);
  * the classifier: the kernel's third pallas_call leaves each edge's sum of products as a column, reshaped to a
    vector, the reference sums the product array's rows from zero.
  Each lemma names one buffer at one segment boundary and says which stage of the reference it holds, as a function of
  the argument arrays as launched; the last one is the result buffer at the end of @main.
-/
import proofs.«173329_j71270687310164_2_alg».proof.Proof.Gen.KernelIdeal.Frame
import proofs.«173329_j71270687310164_2_alg».proof.Proof.Gen.ReferenceIdeal.Read
import proofs.«173329_j71270687310164_2_alg».proof.Proof.Region0
import proofs.«173329_j71270687310164_2_alg».proof.Proof.Region1
import proofs.«173329_j71270687310164_2_alg».proof.Proof.Region2
import proofs.«173329_j71270687310164_2_alg».proof.Proof.LibMeanScale
import Idealize.ShloMosaic.Lib.StableHlo.Run

set_option maxRecDepth 16384
set_option maxHeartbeats 4000000

noncomputable section

namespace Cert.KernelIdeal.Fold

open Cert.KernelIdeal Cert.KernelIdeal.Gen Idealize.ShloMosaic Idealize.ShloMosaic.TcCoe Idealize.SL.Sem Idealize.ShloMosaic.StableHlo
open Idealize.ShloMosaic.ValueIdx Cert.LibAffine Cert.LibSageLayer Cert.LibMeanScale Cert.LibPlainDot

variable (m : (ℓ : Loc nD τ sig) → Buf (Elt Ideal) ℓ) (ρ : Dev nD → PrngReg) (c : Dev nD)

/-! ## After the first stretch of host operations -/

/-- The sources of the edges. -/
theorem W1_src : W1 m ρ c (Proc.devRef .tc main_v1) = (Cert.ReferenceIdeal.Read.val_main_v8 (F := Ideal) (m ((c : Thread nD τ).loc main_arg1))) := by
  show StableHlo.after hostOps0 (W0 m ρ c) (Proc.devRef .tc main_v1) = _
  after_results_simp <;> rfl

/-- The targets of the edges. -/
theorem W1_dst : W1 m ρ c (Proc.devRef .tc main_v3) = (Cert.ReferenceIdeal.Read.val_main_v10 (F := Ideal) (m ((c : Thread nD τ).loc main_arg1))) := by
  show StableHlo.after hostOps0 (W0 m ρ c) (Proc.devRef .tc main_v3) = _
  after_results_simp <;> rfl

/-- The reciprocal of the clamped in-degree, as a column. -/
theorem W1_inv : W1 m ρ c (Proc.devRef .tc main_v19) = (broadcastInDim S50000x1 ![0] bcast_S50000_S50000x1_0 (Host.divf (broadcastInDim S50000 ![] bcast_S_S50000 (constant (F := Ideal) S_ .f32 0x3F800000#32)) (Cert.ReferenceIdeal.Read.val_main_v16 (F := Ideal) (m ((c : Thread nD τ).loc main_arg1))))) := by
  show StableHlo.after hostOps0 (W0 m ρ c) (Proc.devRef .tc main_v19) = _
  after_results_simp <;> rfl

/-- The looked-up node features. -/
theorem V1_x : V1 m ρ c main_v10 = (Cert.ReferenceIdeal.Read.val_main_v6 (F := Ideal) (m ((c : Thread nD τ).loc main_arg0)) (m ((c : Thread nD τ).loc main_arg2))) := by
  show StableHlo.after hostOps0 (W0 m ρ c) (Proc.devRef .tc main_v10) = _
  after_results_simp <;> rfl

/-- The first layer's mean of neighbour features: summed messages times the reciprocal count is summed messages
    divided by the count. -/
theorem V1_agg : V1 m ρ c main_v31 = (Cert.ReferenceIdeal.Read.val_main_v29 (F := Ideal) (m ((c : Thread nD τ).loc main_arg0)) (m ((c : Thread nD τ).loc main_arg1)) (m ((c : Thread nD τ).loc main_arg2))) := by
  show StableHlo.after hostOps0 (W0 m ρ c) (Proc.devRef .tc main_v31) = _
  after_results_simp
  exact scale_by_reciprocal_eq bcast_S_S50000 bcast_S50000_S50000x1_0 bcast_S50000x1_S50000x64_0_1 (Cert.ReferenceIdeal.Read.val_main_v26 (F := Ideal) (m ((c : Thread nD τ).loc main_arg0)) (m ((c : Thread nD τ).loc main_arg1)) (m ((c : Thread nD τ).loc main_arg2))) (Cert.ReferenceIdeal.Read.val_main_v14 (F := Ideal) (m ((c : Thread nD τ).loc main_arg1)))

theorem W1_arg3 : W1 m ρ c (Proc.devRef .tc main_arg3) = m ((c : Thread nD τ).loc main_arg3) := by
  show StableHlo.after hostOps0 (W0 m ρ c) (Proc.devRef .tc main_arg3) = _
  after_results_simp <;> rfl

theorem W1_arg4 : W1 m ρ c (Proc.devRef .tc main_arg4) = m ((c : Thread nD τ).loc main_arg4) := by
  show StableHlo.after hostOps0 (W0 m ρ c) (Proc.devRef .tc main_arg4) = _
  after_results_simp <;> rfl

theorem W1_arg5 : W1 m ρ c (Proc.devRef .tc main_arg5) = m ((c : Thread nD τ).loc main_arg5) := by
  show StableHlo.after hostOps0 (W0 m ρ c) (Proc.devRef .tc main_arg5) = _
  after_results_simp <;> rfl

theorem W1_arg6 : W1 m ρ c (Proc.devRef .tc main_arg6) = m ((c : Thread nD τ).loc main_arg6) := by
  show StableHlo.after hostOps0 (W0 m ρ c) (Proc.devRef .tc main_arg6) = _
  after_results_simp <;> rfl

theorem W1_arg7 : W1 m ρ c (Proc.devRef .tc main_arg7) = m ((c : Thread nD τ).loc main_arg7) := by
  show StableHlo.after hostOps0 (W0 m ρ c) (Proc.devRef .tc main_arg7) = _
  after_results_simp <;> rfl

theorem W1_arg8 : W1 m ρ c (Proc.devRef .tc main_arg8) = m ((c : Thread nD τ).loc main_arg8) := by
  show StableHlo.after hostOps0 (W0 m ρ c) (Proc.devRef .tc main_arg8) = _
  after_results_simp <;> rfl

theorem V1_arg3 : V1 m ρ c main_arg3 = m ((c : Thread nD τ).loc main_arg3) := W1_arg3 m ρ c

theorem V1_arg4 : V1 m ρ c main_arg4 = m ((c : Thread nD τ).loc main_arg4) := W1_arg4 m ρ c

theorem V1_arg5 : V1 m ρ c main_arg5 = m ((c : Thread nD τ).loc main_arg5) := W1_arg5 m ρ c

/-! ## After the first pallas_call -/

/-- The hidden features: the first layer of the arrays it was entered with is the reference's first layer. -/
theorem W2_h : W2 m ρ c (Proc.devRef .tc main_v32) = (Cert.ReferenceIdeal.Read.val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine (W2_arr m ρ c 5).trans ?_
  rw [Region0.final (V1 m ρ) c Cert.ReferenceIdeal.Facts₀.bcast_S128_S1x128_1]
  unfold Region0.layer
  rw [V1_agg m ρ c, V1_x m ρ c, V1_arg3 m ρ c, V1_arg4 m ρ c, V1_arg5 m ρ c]
  exact (hostSolo_eq Cert.ReferenceIdeal.dot_S50000x64_S64x128_S50000x128_1_0_0_1_n_n (contr_rank _ rfl) (contr_size _ rfl) (lhs_row _ rfl rfl) (lhs_col _ rfl) (rhs_row _ rfl rfl) (rhs_col _ rfl rfl rfl rfl)
    Cert.ReferenceIdeal.Facts₀.bcast_S1x128_S50000x128_0_1 Cert.ReferenceIdeal.Facts₀.bcast_S_S50000x128 none _ _ _ _ _).symm

theorem W2_src : W2 m ρ c (Proc.devRef .tc main_v1) = (Cert.ReferenceIdeal.Read.val_main_v8 (F := Ideal) (m ((c : Thread nD τ).loc main_arg1))) :=
  (W2_of_ne m ρ c main_v1 (by decide)).trans (W1_src m ρ c)
theorem W2_dst : W2 m ρ c (Proc.devRef .tc main_v3) = (Cert.ReferenceIdeal.Read.val_main_v10 (F := Ideal) (m ((c : Thread nD τ).loc main_arg1))) :=
  (W2_of_ne m ρ c main_v3 (by decide)).trans (W1_dst m ρ c)
theorem W2_inv : W2 m ρ c (Proc.devRef .tc main_v19) = (broadcastInDim S50000x1 ![0] bcast_S50000_S50000x1_0 (Host.divf (broadcastInDim S50000 ![] bcast_S_S50000 (constant (F := Ideal) S_ .f32 0x3F800000#32)) (Cert.ReferenceIdeal.Read.val_main_v16 (F := Ideal) (m ((c : Thread nD τ).loc main_arg1))))) :=
  (W2_of_ne m ρ c main_v19 (by decide)).trans (W1_inv m ρ c)
theorem W2_arg6 : W2 m ρ c (Proc.devRef .tc main_arg6) = m ((c : Thread nD τ).loc main_arg6) :=
  (W2_of_ne m ρ c main_arg6 (by decide)).trans (W1_arg6 m ρ c)
theorem W2_arg7 : W2 m ρ c (Proc.devRef .tc main_arg7) = m ((c : Thread nD τ).loc main_arg7) :=
  (W2_of_ne m ρ c main_arg7 (by decide)).trans (W1_arg7 m ρ c)
theorem W2_arg8 : W2 m ρ c (Proc.devRef .tc main_arg8) = m ((c : Thread nD τ).loc main_arg8) :=
  (W2_of_ne m ρ c main_arg8 (by decide)).trans (W1_arg8 m ρ c)

/-! ## After the second stretch of host operations -/

/-- The second layer's mean of neighbour features. -/
theorem V3_agg : V3 m ρ c main_v44 = (Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  show StableHlo.after hostOps1 (W2 m ρ c) (Proc.devRef .tc main_v44) = _
  after_results_simp
  rw [W2_src m ρ c, W2_dst m ρ c, W2_inv m ρ c, W2_h m ρ c]
  exact scale_by_reciprocal_eq bcast_S_S50000 bcast_S50000_S50000x1_0 bcast_S50000x1_S50000x128_0_1 (Cert.ReferenceIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Cert.ReferenceIdeal.Read.val_main_v14 (F := Ideal) (m ((c : Thread nD τ).loc main_arg1)))

theorem V3_h : V3 m ρ c main_v32 = (Cert.ReferenceIdeal.Read.val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  show StableHlo.after hostOps1 (W2 m ρ c) (Proc.devRef .tc main_v32) = _
  after_results_simp
  exact W2_h m ρ c
theorem V3_arg6 : V3 m ρ c main_arg6 = m ((c : Thread nD τ).loc main_arg6) := by
  show StableHlo.after hostOps1 (W2 m ρ c) (Proc.devRef .tc main_arg6) = _
  after_results_simp
  exact W2_arg6 m ρ c
theorem V3_arg7 : V3 m ρ c main_arg7 = m ((c : Thread nD τ).loc main_arg7) := by
  show StableHlo.after hostOps1 (W2 m ρ c) (Proc.devRef .tc main_arg7) = _
  after_results_simp
  exact W2_arg7 m ρ c
theorem V3_arg8 : V3 m ρ c main_arg8 = m ((c : Thread nD τ).loc main_arg8) := by
  show StableHlo.after hostOps1 (W2 m ρ c) (Proc.devRef .tc main_arg8) = _
  after_results_simp
  exact W2_arg8 m ρ c
theorem W3_src : W3 m ρ c (Proc.devRef .tc main_v1) = (Cert.ReferenceIdeal.Read.val_main_v8 (F := Ideal) (m ((c : Thread nD τ).loc main_arg1))) := by
  show StableHlo.after hostOps1 (W2 m ρ c) (Proc.devRef .tc main_v1) = _
  after_results_simp
  exact W2_src m ρ c
theorem W3_dst : W3 m ρ c (Proc.devRef .tc main_v3) = (Cert.ReferenceIdeal.Read.val_main_v10 (F := Ideal) (m ((c : Thread nD τ).loc main_arg1))) := by
  show StableHlo.after hostOps1 (W2 m ρ c) (Proc.devRef .tc main_v3) = _
  after_results_simp
  exact W2_dst m ρ c

/-! ## After the second pallas_call -/

/-- The output features: the second layer of the arrays it was entered with is the reference's second layer. -/
theorem W4_h2 : W4 m ρ c (Proc.devRef .tc main_v45) = (Cert.ReferenceIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  refine (W4_arr m ρ c 5).trans ?_
  rw [Region1.final (V3 m ρ) c Cert.ReferenceIdeal.Facts₀.bcast_S64_S1x64_1]
  unfold Region1.layer
  rw [V3_agg m ρ c, V3_h m ρ c, V3_arg6 m ρ c, V3_arg7 m ρ c, V3_arg8 m ρ c]
  exact (hostAffine2_eq Cert.ReferenceIdeal.dot_S50000x128_S128x64_S50000x64_1_0_0_1_n_n (contr_rank _ rfl) (contr_size _ rfl) (lhs_row _ rfl rfl) (lhs_col _ rfl) (rhs_row _ rfl rfl) (rhs_col _ rfl rfl rfl rfl)
    Cert.ReferenceIdeal.Facts₀.bcast_S1x64_S50000x64_0_1 none _ _ _ _ _).symm

theorem W4_src : W4 m ρ c (Proc.devRef .tc main_v1) = (Cert.ReferenceIdeal.Read.val_main_v8 (F := Ideal) (m ((c : Thread nD τ).loc main_arg1))) :=
  (W4_of_ne m ρ c main_v1 (by decide)).trans (W3_src m ρ c)
theorem W4_dst : W4 m ρ c (Proc.devRef .tc main_v3) = (Cert.ReferenceIdeal.Read.val_main_v10 (F := Ideal) (m ((c : Thread nD τ).loc main_arg1))) :=
  (W4_of_ne m ρ c main_v3 (by decide)).trans (W3_dst m ρ c)

/-! ## After the third stretch of host operations -/

/-- The output features gathered at the edges' sources. -/
theorem V5_a : V5 m ρ c main_v52 = (Cert.ReferenceIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  show StableHlo.after hostOps2 (W4 m ρ c) (Proc.devRef .tc main_v52) = _
  after_results_simp
  rw [W4_src m ρ c, W4_h2 m ρ c]
  rfl

/-- The output features gathered at the edges' targets. -/
theorem V5_b : V5 m ρ c main_v59 = (Cert.ReferenceIdeal.Read.val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  show StableHlo.after hostOps2 (W4 m ρ c) (Proc.devRef .tc main_v59) = _
  after_results_simp
  rw [W4_dst m ρ c, W4_h2 m ρ c]
  rfl

/-! ## After the third pallas_call, and the last reshape -/

theorem W6_out : W6 m ρ c (Proc.devRef .tc main_v60) = Region2.dots (V5 m ρ) c :=
  (W6_arr m ρ c 2).trans (Region2.final (V5 m ρ) c)

/-- The one-column array of row sums of products, reshaped to a vector, reads at e the sum over the 64 features. -/
theorem dots_vector (X Y : S800000x64.Idx → Ideal .f32) (hc : S800000x1.ShapeCasts S800000) (e : Fin 800000) :
    shapeCast S800000 (Region2.rowDots X Y) hc (ix1 e) = ∑ k : Fin 64, X (ix2 e k) * Y (ix2 e k) := by
  refine (shapeCast_apply _ hc (ix1 e) (ix2 e (0 : Fin 1)) ?_).trans rfl
  rw [Shape.rowMajor_val_two, Shape.rowMajor_val_one]
  show e.val * 1 + 0 = e.val
  omega

/-- Row e of the sums of products, as a sum over the 64 features. -/
theorem rowDots_eq_sum (X Y : S800000x64.Idx → Ideal .f32) (e : Fin 800000) (f : Fin 64 → Ideal .f32)
    (h : ∀ k : Fin 64, X (ix2 e k) * Y (ix2 e k) = f k) : Region2.rowDots X Y (ix2 e (0 : Fin 1)) = ∑ k : Fin 64, f k :=
  Finset.sum_congr rfl fun k _ => h k

/-- THE RESULT: the kernel program's result buffer ends at the reference's result term of the arguments as launched.
    At edge e both are the sum over the 64 features of the products of the gathered output features; the reference
    starts its sum from zero. -/
theorem W7_out : W7 m ρ c (Proc.devRef .tc main_v61) = (Cert.ReferenceIdeal.Read.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  show StableHlo.after hostOps3 (W6 m ρ c) (Proc.devRef .tc main_v61) = _
  after_results_simp
  rw [W6_out m ρ c]
  unfold Region2.dots
  rw [V5_a m ρ c, V5_b m ρ c]
  funext i
  obtain ⟨e, rfl⟩ : ∃ e : Fin 800000, i = ix1 e := ⟨i 0, eq_ix1 i⟩
  refine (dots_vector _ _ _ e).trans ?_
  refine Eq.trans ?_ (Cert.ReferenceIdeal.Read.val_main_v71_apply _ _ _ _ _ _ _ _ _ (ix1 e)).symm
  have hz : Cert.ReferenceIdeal.Read.val_main_cst_13 (F := Ideal) (Shape.Idx.first Cert.ReferenceIdeal.Facts₀.h_S_) = 0 := Ideal.ofBits_zero_f32
  rw [hz, zero_add]
  refine Finset.sum_congr rfl fun k _ => ?_
  have hi : Cert.ReferenceIdeal.Read.idx_main_v71 (ix1 e) k = ix2 e k :=
    funext fun a => Fin.ext (by match a with | ⟨0, _⟩ => rfl | ⟨1, _⟩ => rfl)
  rw [hi, Cert.ReferenceIdeal.Read.val_main_v70_apply, Ideal.mulf_def]

end Cert.KernelIdeal.Fold

end
-- ==== Proof.lean ====
/-
  A two-layer mean-aggregation graph network with an edge classifier, against its plain reference, over the extended reals.

  Both programs look node features up, count each node's incoming edges (clamped at one), and twice form
  `mean · Wl + b + h · Wr` of the neighbours' mean and the node's own features — the first time followed by the positive
  part —, then score every edge by the dot product of its two endpoints' output features. The kernel program runs the two
  dense layers and the dot products as three pallas_calls, tiled over rows, and multiplies by the reciprocal count where
  the reference divides by the count. At the ideal values narrowing to bf16 is the identity, a matrix-unit product is the
  plain sum of products, tiling over rows changes nothing because each row of a layer reads one row of its operands,
  and `S · (1 / d) = S / d` for every extended real `S` once `d = max z 1` is not zero. So the two results are the same
  function of the arguments, with no use of the inputs' finiteness. The gathers and scatters are the same terms on both
  sides and are never opened.

  The frames of the two kernel programs and the reference's run and stage-by-stage readings are generated modules; the
  kernel program's run with its result named, the three regions' result arrays, the fold of buffer contents through
  @main and the comparison with the reference's stages are the modules imported below.
-/
import proofs.«173329_j71270687310164_2_alg».proof.Defs
import proofs.«173329_j71270687310164_2_alg».proof.Proof.Gen.Kernel
import proofs.«173329_j71270687310164_2_alg».proof.Proof.Gen.Kernel.Skeleton
import proofs.«173329_j71270687310164_2_alg».proof.Proof.Gen.Kernel.Launch
import proofs.«173329_j71270687310164_2_alg».proof.Proof.Gen.Kernel.Points
import proofs.«173329_j71270687310164_2_alg».proof.Proof.Gen.Kernel.Frame
import proofs.«173329_j71270687310164_2_alg».proof.Proof.Gen.KernelIdeal
import proofs.«173329_j71270687310164_2_alg».proof.Proof.Gen.KernelIdeal.Skeleton
import proofs.«173329_j71270687310164_2_alg».proof.Proof.Gen.KernelIdeal.Launch
import proofs.«173329_j71270687310164_2_alg».proof.Proof.Gen.KernelIdeal.Points
import proofs.«173329_j71270687310164_2_alg».proof.Proof.Gen.KernelIdeal.Frame
import proofs.«173329_j71270687310164_2_alg».proof.Proof.Gen.ReferenceIdeal
import proofs.«173329_j71270687310164_2_alg».proof.Proof.Gen.Pre_finite_inputs
import proofs.«173329_j71270687310164_2_alg».proof.Proof.Gen.ReferenceIdeal.Run
import proofs.«173329_j71270687310164_2_alg».proof.Proof.Gen.ReferenceIdeal.Read
import proofs.«173329_j71270687310164_2_alg».proof.Proof.KernelRun
import proofs.«173329_j71270687310164_2_alg».proof.Proof.HostFold
import Idealize.ShloMosaic.Adequacy
import Idealize.ShloMosaic.Init

noncomputable section

namespace Cert.Proof

open Idealize.ShloMosaic Idealize.SL.Sem

/-- The word-level kernel program runs and keeps its arguments: the generated frame. -/
theorem frame_kernel : Cert.frame_Kernel := fun m ρ _ => Cert.Kernel.Gen.frame m ρ

/-- The idealized kernel program runs and keeps its arguments: the generated frame. -/
theorem frame_kernelIdeal : Cert.frame_KernelIdeal := fun m ρ _ => Cert.KernelIdeal.Gen.frame m ρ

/-- The reference runs and keeps its arguments: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both programs end with the reference's result term of the arguments: the
    kernel program by its run and the fold of its buffer contents, the reference by its generated run. -/
theorem algebraic : Cert.algebraic_KernelIdeal_ReferenceIdeal := by
  intro m ρ m' ρ' _ hagree
  refine ⟨fun c => Cert.ReferenceIdeal.Read.val_main_v71 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Fold.W7_out m ρ c), (h c).2⟩) (Cert.KernelIdeal.RunValue.run_result m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8⟩ := hagree c
    rw [Cert.ReferenceIdeal.Read.val_main_v71_eq, e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
